-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v144)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v144) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1200000 : Shape := ⟨2, ![2, 1200000]⟩
abbrev S100000 : Shape := ⟨1, ![100000]⟩
abbrev S7x64 : Shape := ⟨2, ![7, 64]⟩
abbrev S64 : Shape := ⟨1, ![64]⟩
abbrev S2x64x64 : Shape := ⟨3, ![2, 64, 64]⟩
abbrev S2x64 : Shape := ⟨2, ![2, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x64 : S_.BroadcastsInDim S7x64 (![] : Fin 0 → Fin S7x64.rank)
  reducesTo_S7x64_S_d0_1 : S7x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S32x1 .f32) (main_arg14 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x1 .f32 := Host.absf main_arg13
  let main_cst_20 : FVec F S_ .f32 := constant S_ .f32 0x7F800000#32
  let main_v55 : FVec F S32x1 .f32 := broadcastInDim S32x1 ![] bcast_S_S32x1 main_cst_20
  let main_v56 : IVec S32x1 1 := cmpf .olt main_v54 main_v55
  let main_c_21 : IVec S_ 1 := constantI S_ 1 1#1
  let main_v57 : IVec S_ 1 := (fun x v => Host.reduce IntOp.andi x v reducesTo_S32x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S2x64 .f32) (main_arg10 : FVec F S2x64 .f32) (main_arg11 : FVec F S64x32 .f32) (main_arg12 : FVec F S32 .f32) (main_arg13 : FVec F S32x1 .f32) (main_arg14 : FVec F S1 .f32) (main_v33 : IVec S_ 1) : IVec S_ 1 :=
  let main_v34 : FVec F S2x64 .f32 := Host.absf main_arg9
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64 .f32 := Host.absf main_arg10
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S2x64 .f32) (main_arg7 : FVec F S2x64 .f32) (main_arg8 : FVec F S2x64 .f32) (main_arg9 : FVec F S2x64 .f32) (main_arg10 : FVec F S2x64 .f32) (main_arg11 : FVec F S64x32 .f32) (main_arg12 : FVec F S32 .f32) (main_arg13 : FVec F S32x1 .f32) (main_arg14 : FVec F S1 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg6
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg7
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64 .f32 := Host.absf main_arg8
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x7 .f32) (main_arg1 : IVec S2x1200000 32) (main_arg2 : IVec S100000 32) (main_arg3 : FVec F S7x64 .f32) (main_arg4 : FVec F S64 .f32) (main_arg5 : FVec F S2x64x64 .f32) (main_arg6 : FVec F S2x64 .f32) (main_arg7 : FVec F S2x64 .f32) (main_arg8 : FVec F S2x64 .f32) (main_arg9 : FVec F S2x64 .f32) (main_arg10 : FVec F S2x64 .f32) (main_arg11 : FVec F S64x32 .f32) (main_arg12 : FVec F S32 .f32) (main_arg13 : FVec F S32x1 .f32) (main_arg14 : FVec F S1 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x64 .f32 := Host.absf main_arg3
  let main_cst_0 : FVec F S_ .f32 := constant S_ .f32 0x7F800000#32
  let main_v5 : FVec F S7x64 .f32 := broadcastInDim S7x64 ![] bcast_S_S7x64 main_cst_0
  let main_v6 : IVec S7x64 1 := cmpf .olt main_v4 main_v5
  let main_c_1 : IVec S_ 1 := constantI S_ 1 1#1
  let main_v7 : IVec S_ 1 := (fun x v => Host.reduce IntOp.andi x v reducesTo_S7x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64x64 .f32 := Host.absf main_arg5
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg6 main_arg7 main_arg8 main_arg9 main_arg10 main_arg11 main_arg12 main_arg13 main_arg14 main_v13 main_v16
-- ==== Kernel.lean ====
abbrev S100000x7 : Shape := ⟨2, ![100000, 7]⟩
abbrev S2x1200000 : Shape := ⟨2, ![2, 1200000]⟩
abbrev S100000 : Shape := ⟨1, ![100000]⟩
abbrev S7x64 : Shape := ⟨2, ![7, 64]⟩
abbrev S64 : Shape := ⟨1, ![64]⟩
abbrev S2x64x64 : Shape := ⟨3, ![2, 64, 64]⟩
abbrev S2x64 : Shape := ⟨2, ![2, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x64 : Shape := ⟨2, ![1, 64]⟩
abbrev S100000x64 : Shape := ⟨2, ![100000, 64]⟩
abbrev S5000x7 : Shape := ⟨2, ![5000, 7]⟩
abbrev S5000x64 : Shape := ⟨2, ![5000, 64]⟩
abbrev S1x64x64 : Shape := ⟨3, ![1, 64, 64]⟩
abbrev S64x64 : Shape := ⟨2, ![64, 64]⟩
abbrev S1x1200000 : Shape := ⟨2, ![1, 1200000]⟩
abbrev S1200000 : Shape := ⟨1, ![1200000]⟩
abbrev S1300000 : Shape := ⟨1, ![1300000]⟩
abbrev S_ : Shape := ⟨0, ![]⟩
abbrev S1300000x1 : Shape := ⟨2, ![1300000, 1]⟩
abbrev S1300000x64 : Shape := ⟨2, ![1300000, 64]⟩
abbrev S100000x1 : Shape := ⟨2, ![100000, 1]⟩
abbrev S64x1 : Shape := ⟨2, ![64, 1]⟩
abbrev S1x32 : Shape := ⟨2, ![1, 32]⟩
abbrev S1x1 : Shape := ⟨2, ![1, 1]⟩

abbrev nBuf : Space → Nat
  | .hbm => 192
  | .vmem => 42
  | .smem => 0
  | _ => 0

abbrev hbmTy0_0 (i : Nat) : BufTy := match i % 128 with
  | 0 => ⟨S100000x7, .f32⟩
  | 1 => ⟨S2x1200000, .i32⟩
  | 2 => ⟨S100000, .i32⟩
  | 3 => ⟨S7x64, .f32⟩
  | 4 => ⟨S64, .f32⟩
  | 5 => ⟨S2x64x64, .f32⟩
  | 6 => ⟨S2x64, .f32⟩
  | 7 => ⟨S2x64, .f32⟩
  | 8 => ⟨S2x64, .f32⟩
  | 9 => ⟨S2x64, .f32⟩
  | 10 => ⟨S2x64, .f32⟩
  | 11 => ⟨S64x32, .f32⟩
  | 12 => ⟨S32, .f32⟩
  | 13 => ⟨S32x1, .f32⟩
  | 14 => ⟨S1, .f32⟩
  | 15 => ⟨S1x64, .f32⟩
  | 16 => ⟨S100000x64, .f32⟩
  | 17 => ⟨S1x64x64, .f32⟩
  | 18 => ⟨S64x64, .f32⟩
  | 19 => ⟨S100000, .i32⟩
  | 20 => ⟨S1x1200000, .i32⟩
  | 21 => ⟨S1200000, .i32⟩
  | 22 => ⟨S1300000, .i32⟩
  | 23 => ⟨S1x1200000, .i32⟩
  | 24 => ⟨S1200000, .i32⟩
  | 25 => ⟨S1300000, .i32⟩
  | 26 => ⟨S_, .f32⟩
  | 27 => ⟨S1300000, .f32⟩
  | 28 => ⟨S_, .f32⟩
  | 29 => ⟨S100000, .f32⟩
  | 30 => ⟨S1300000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S100000x64, .f32⟩
  | 44 => ⟨S_, .i32⟩
  | 45 => ⟨S1300000, .i32⟩
  | 46 => ⟨S1300000, .i1⟩
  | 47 => ⟨S_, .i32⟩
  | 48 => ⟨S1300000, .i32⟩
  | 49 => ⟨S1300000, .i32⟩
  | 50 => ⟨S1300000, .i32⟩
  | 51 => ⟨S1300000x1, .i32⟩
  | 52 => ⟨S1300000, .f32⟩
  | 53 => ⟨S_, .i32⟩
  | 54 => ⟨S1300000, .i32⟩
  | 55 => ⟨S1300000, .i1⟩
  | 56 => ⟨S_, .i32⟩
  | 57 => ⟨S1300000, .i32⟩
  | 58 => ⟨S1300000, .i32⟩
  | 59 => ⟨S1300000, .i32⟩
  | 60 => ⟨S1300000x1, .i32⟩
  | 61 => ⟨S1300000, .f32⟩
  | 62 => ⟨S1300000, .f32⟩
  | 63 => ⟨S1300000x1, .f32⟩
  | 64 => ⟨S_, .i32⟩
  | 65 => ⟨S1300000, .i32⟩
  | 66 => ⟨S1300000, .i1⟩
  | 67 => ⟨S_, .i32⟩
  | 68 => ⟨S1300000, .i32⟩
  | 69 => ⟨S1300000, .i32⟩
  | 70 => ⟨S1300000, .i32⟩
  | 71 => ⟨S1300000x1, .i32⟩
  | 72 => ⟨S1300000x64, .f32⟩
  | 73 => ⟨S1300000x64, .f32⟩
  | 74 => ⟨S1300000x64, .f32⟩
  | 75 => ⟨S_, .f32⟩
  | 76 => ⟨S100000x64, .f32⟩
  | 77 => ⟨S1300000x1, .i32⟩
  | 78 => ⟨S100000x64, .f32⟩
  | 79 => ⟨S1x64, .f32⟩
  | 80 => ⟨S64, .f32⟩
  | 81 => ⟨S1x64, .f32⟩
  | 82 => ⟨S64, .f32⟩
  | 83 => ⟨S1x64, .f32⟩
  | 84 => ⟨S64, .f32⟩
  | 85 => ⟨S1x64, .f32⟩
  | 86 => ⟨S64, .f32⟩
  | 87 => ⟨S1x64, .f32⟩
  | 88 => ⟨S64, .f32⟩
  | 89 => ⟨S1x64, .f32⟩
  | 90 => ⟨S1x64, .f32⟩
  | 91 => ⟨S1x64, .f32⟩
  | 92 => ⟨S1x64, .f32⟩
  | 93 => ⟨S1x64, .f32⟩
  | 94 => ⟨S100000x64, .f32⟩
  | 95 => ⟨S1x64x64, .f32⟩
  | 96 => ⟨S64x64, .f32⟩
  | 97 => ⟨S100000, .i32⟩
  | 98 => ⟨S1x1200000, .i32⟩
  | 99 => ⟨S1200000, .i32⟩
  | 100 => ⟨S1300000, .i32⟩
  | 101 => ⟨S1x1200000, .i32⟩
  | 102 => ⟨S1200000, .i32⟩
  | 103 => ⟨S1300000, .i32⟩
  | 104 => ⟨S_, .f32⟩
  | 105 => ⟨S1300000, .f32⟩
  | 106 => ⟨S_, .f32⟩
  | 107 => ⟨S100000, .f32⟩
  | 108 => ⟨S1300000x1, .i32⟩
  | 109 => ⟨S100000, .f32⟩
  | 110 => ⟨S_, .f32⟩
  | 111 => ⟨S100000, .f32⟩
  | 112 => ⟨S100000, .i1⟩
  | 113 => ⟨S_, .f32⟩
  | 114 => ⟨S100000, .f32⟩
  | 115 => ⟨S100000, .f32⟩
  | 116 => ⟨S100000, .f32⟩
  | 117 => ⟨S_, .f32⟩
  | 118 => ⟨S_, .f32⟩
  | 119 => ⟨S100000, .f32⟩
  | 120 => ⟨S100000, .f32⟩
  | 121 => ⟨S100000x64, .f32⟩
  | 122 => ⟨S_, .i32⟩
  | 123 => ⟨S1300000, .i32⟩
  | 124 => ⟨S1300000, .i1⟩
  | 125 => ⟨S_, .i32⟩
  | 126 => ⟨S1300000, .i32⟩
  | 127 => ⟨S1300000, .i32⟩
  | _ => ⟨S100000x7, .f32⟩

abbrev hbmTy0_1 (i : Nat) : BufTy := match i % 128 with
  | 0 => ⟨S1300000, .i32⟩
  | 1 => ⟨S1300000x1, .i32⟩
  | 2 => ⟨S1300000, .f32⟩
  | 3 => ⟨S_, .i32⟩
  | 4 => ⟨S1300000, .i32⟩
  | 5 => ⟨S1300000, .i1⟩
  | 6 => ⟨S_, .i32⟩
  | 7 => ⟨S1300000, .i32⟩
  | 8 => ⟨S1300000, .i32⟩
  | 9 => ⟨S1300000, .i32⟩
  | 10 => ⟨S1300000x1, .i32⟩
  | 11 => ⟨S1300000, .f32⟩
  | 12 => ⟨S1300000, .f32⟩
  | 13 => ⟨S1300000x1, .f32⟩
  | 14 => ⟨S_, .i32⟩
  | 15 => ⟨S1300000, .i32⟩
  | 16 => ⟨S1300000, .i1⟩
  | 17 => ⟨S_, .i32⟩
  | 18 => ⟨S1300000, .i32⟩
  | 19 => ⟨S1300000, .i32⟩
  | 20 => ⟨S1300000, .i32⟩
  | 21 => ⟨S1300000x1, .i32⟩
  | 22 => ⟨S1300000x64, .f32⟩
  | 23 => ⟨S1300000x64, .f32⟩
  | 24 => ⟨S1300000x64, .f32⟩
  | 25 => ⟨S_, .f32⟩
  | 26 => ⟨S100000x64, .f32⟩
  | 27 => ⟨S1300000x1, .i32⟩
  | 28 => ⟨S100000x64, .f32⟩
  | 29 => ⟨S1x64, .f32⟩
  | 30 => ⟨S64, .f32⟩
  | 31 => ⟨S1x64, .f32⟩
  | 32 => ⟨S64, .f32⟩
  | 33 => ⟨S1x64, .f32⟩
  | 34 => ⟨S64, .f32⟩
  | 35 => ⟨S1x64, .f32⟩
  | 36 => ⟨S64, .f32⟩
  | 37 => ⟨S1x64, .f32⟩
  | 38 => ⟨S64, .f32⟩
  | 39 => ⟨S1x64, .f32⟩
  | 40 => ⟨S1x64, .f32⟩
  | 41 => ⟨S1x64, .f32⟩
  | 42 => ⟨S1x64, .f32⟩
  | 43 => ⟨S1x64, .f32⟩
  | 44 => ⟨S100000x64, .f32⟩
  | 45 => ⟨S_, .f32⟩
  | 46 => ⟨S64x64, .f32⟩
  | 47 => ⟨S100000x1, .i32⟩
  | 48 => ⟨S64x64, .f32⟩
  | 49 => ⟨S_, .f32⟩
  | 50 => ⟨S100000, .f32⟩
  | 51 => ⟨S_, .f32⟩
  | 52 => ⟨S64, .f32⟩
  | 53 => ⟨S100000x1, .i32⟩
  | 54 => ⟨S64, .f32⟩
  | 55 => ⟨S_, .f32⟩
  | 56 => ⟨S64, .f32⟩
  | 57 => ⟨S64, .f32⟩
  | 58 => ⟨S64x1, .f32⟩
  | 59 => ⟨S64x64, .f32⟩
  | 60 => ⟨S64x64, .f32⟩
  | 61 => ⟨S1x32, .f32⟩
  | 62 => ⟨S1x1, .f32⟩
  | 63 => ⟨S64x1, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | .local _ .vmem, ⟨0, _⟩ => ⟨S5000x7, .f32⟩
  | .local _ .vmem, ⟨1, _⟩ => ⟨S5000x7, .f32⟩
  | .local _ .vmem, ⟨2, _⟩ => ⟨S7x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x64, .f32⟩
  | .local _ .vmem, ⟨37, _⟩ => ⟨S64x32, .f32⟩
  | .local _ .vmem, ⟨38, _⟩ => ⟨S1x32, .f32⟩
  | .local _ .vmem, ⟨39, _⟩ => ⟨S32x1, .f32⟩
  | .local _ .vmem, ⟨40, _⟩ => ⟨S1x1, .f32⟩
  | .local _ .vmem, ⟨41, _⟩ => ⟨S64x1, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v20 : Ref sig .tc := ⟨.hbm, 42, rfl⟩
abbrev main_v21 : Ref sig .tc := ⟨.hbm, 43, rfl⟩
abbrev main_c : Ref sig .tc := ⟨.hbm, 44, rfl⟩
abbrev main_v22 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_c_7 : Ref sig .tc := ⟨.hbm, 64, rfl⟩
abbrev main_v38 : Ref sig .tc := ⟨.hbm, 65, rfl⟩
abbrev main_v39 : Ref sig .tc := ⟨.hbm, 66, rfl⟩
abbrev main_c_8 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_10 : Ref sig .tc := ⟨.hbm, 104, rfl⟩
abbrev main_v75 : Ref sig .tc := ⟨.hbm, 105, rfl⟩
abbrev main_cst_11 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_12 : Ref sig .tc := ⟨.hbm, 110, rfl⟩
abbrev main_v79 : Ref sig .tc := ⟨.hbm, 111, rfl⟩
abbrev main_v80 : Ref sig .tc := ⟨.hbm, 112, rfl⟩
abbrev main_cst_13 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_14 : Ref sig .tc := ⟨.hbm, 117, rfl⟩
abbrev main_call1_v0 : Ref sig .tc := ⟨.hbm, 118, rfl⟩
abbrev main_call1_v1 : Ref sig .tc := ⟨.hbm, 119, rfl⟩
abbrev main_v84 : Ref sig .tc := ⟨.hbm, 120, rfl⟩
abbrev main_v85 : Ref sig .tc := ⟨.hbm, 121, rfl⟩
abbrev main_c_15 : Ref sig .tc := ⟨.hbm, 122, rfl⟩
abbrev main_v86 : Ref sig .tc := ⟨.hbm, 123, rfl⟩
abbrev main_v87 : Ref sig .tc := ⟨.hbm, 124, rfl⟩
abbrev main_c_16 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_c_17 : Ref sig .tc := ⟨.hbm, 131, rfl⟩
abbrev main_v93 : Ref sig .tc := ⟨.hbm, 132, rfl⟩
abbrev main_v94 : Ref sig .tc := ⟨.hbm, 133, rfl⟩
abbrev main_c_18 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_c_19 : Ref sig .tc := ⟨.hbm, 142, rfl⟩
abbrev main_v102 : Ref sig .tc := ⟨.hbm, 143, rfl⟩
abbrev main_v103 : Ref sig .tc := ⟨.hbm, 144, rfl⟩
abbrev main_c_20 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_21 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_cst_22 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_23 : Ref sig .tc := ⟨.hbm, 177, rfl⟩
abbrev main_v133 : Ref sig .tc := ⟨.hbm, 178, rfl⟩
abbrev main_cst_24 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_25 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg6_1 : Ref sig .tc := ⟨.vmem, 33, rfl⟩
abbrev cc4_stg7_0 : Ref sig .tc := ⟨.vmem, 34, rfl⟩
abbrev cc4_stg7_1 : Ref sig .tc := ⟨.vmem, 35, rfl⟩
abbrev cc5_stg0_0 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem6_1 : DmaSem sig := 33
abbrev cc4_sem7_0 : DmaSem sig := 34
abbrev cc4_sem7_1 : DmaSem sig := 35
abbrev cc5_sem0_0 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x64 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  shapeCasts_S64_S1x64 : S64.ShapeCasts S1x64
  inb_S5000x7_S5000x7_0_0 : ∀ a, (![0, 0] : Fin 2 → Nat) a + S5000x7.size a ≤ S5000x7.size a
  h_S5000x7 : 0 < S5000x7.numel
  bitsLt_bf16_f32 : FTy.bits .bf16 < FTy.bits .f32
  inb_S7x64_S7x64_0_0 : ∀ a, (![0, 0] : Fin 2 → Nat) a + S7x64.size a ≤ S7x64.size a
  h_S7x64 : 0 < S7x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x64x64_S1x64x64_0_0_0 : S2x64x64.Slices ![0, 0, 0] S1x64x64
  shapeCasts_S1x64x64_S64x64 : S1x64x64.ShapeCasts S64x64
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  dot_S5000x7_S7x64_S5000x64_1_0_0_1_n_n_wf : DotDims.WF S5000x7 S7x64 S5000x64 [1] [0] [0] [1] [] []
  scatter_S100000_S1300000x1_S1300000_n_0_0_1_wf : ScatterDims.WF S100000 S1300000x1 S1300000 [] [0] [0] 1
  dot_S5000x64_S64x64_S5000x64_1_0_0_1_n_n_wf : DotDims.WF S5000x64 S64x64 S5000x64 [1] [0] [0] [1] [] []
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S100000x7.size a
  hwx0_0 : ∀ i : grid0.Coords, EltTy.bits .f32 = 32 ∨ (Rect.block (s := S100000x7) S5000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x64.size a ≤ S7x64.size a
  hwx0_1 : ∀ i : grid0.Coords, EltTy.bits .f32 = 32 ∨ (Rect.block (s := S7x64) S7x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S100000x64.size a
  hwx4_6 : ∀ i : grid4.Coords, EltTy.bits .f32 = 32 ∨ (Rect.block (s := S100000x64) S5000x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S100000x64.size a
  hwx4_7 : ∀ i : grid4.Coords, EltTy.bits .f32 = 32 ∨ (Rect.block (s := S100000x64) S5000x64.size (cc4_transform_7 i) (hinb4_7 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S64x64.size a ≤ S64x64.size a
  hwx5_0 : ∀ i : grid5.Coords, EltTy.bits .f32 = 32 ∨ (Rect.block (s := S64x64) S64x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x1.size a ≤ S32x1.size a
  hwx5_3 : ∀ i : grid5.Coords, EltTy.bits .f32 = 32 ∨ (Rect.block (s := S32x1) S32x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x1.size a ≤ S64x1.size a
  hwx5_5 : ∀ i : grid5.Coords, EltTy.bits .f32 = 32 ∨ (Rect.block (s := S64x1) S64x1.size (cc5_transform_5 i) (hinb5_5 i)).WholeWords (EltTy.packing .f32)

variable [Facts₀]

def dot_S5000x7_S7x64_S5000x64_1_0_0_1_n_n : DotDims S5000x7 S7x64 S5000x64 where
  lhsContracting := [1]
  rhsContracting := [0]
  lhsNonContracting := [0]
  rhsNonContracting := [1]
  lhsBatch := []
  rhsBatch := []
  wf := dot_S5000x7_S7x64_S5000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_arg0) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v63) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v64) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v65) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v65) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v113) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v124) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v125) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v126) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v127) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v128) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v65) S5000x64.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v129) S5000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v141) S64x64.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v142) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S32x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v143) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v144) S64x1.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x7 : Shape := ⟨2, ![100000, 7]⟩
abbrev S2x1200000 : Shape := ⟨2, ![2, 1200000]⟩
abbrev S100000 : Shape := ⟨1, ![100000]⟩
abbrev S7x64 : Shape := ⟨2, ![7, 64]⟩
abbrev S64 : Shape := ⟨1, ![64]⟩
abbrev S2x64x64 : Shape := ⟨3, ![2, 64, 64]⟩
abbrev S2x64 : Shape := ⟨2, ![2, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x64 : Shape := ⟨2, ![100000, 64]⟩
abbrev S1x64 : Shape := ⟨2, ![1, 64]⟩
abbrev S_ : Shape := ⟨0, ![]⟩
abbrev S1x64x64 : Shape := ⟨3, ![1, 64, 64]⟩
abbrev S64x64 : Shape := ⟨2, ![64, 64]⟩
abbrev S1x1200000 : Shape := ⟨2, ![1, 1200000]⟩
abbrev S1200000 : Shape := ⟨1, ![1200000]⟩
abbrev S1300000 : Shape := ⟨1, ![1300000]⟩
abbrev S1300000x1 : Shape := ⟨2, ![1300000, 1]⟩
abbrev S1300000x64 : Shape := ⟨2, ![1300000, 64]⟩
abbrev S100000x1 : Shape := ⟨2, ![100000, 1]⟩
abbrev S64x1 : Shape := ⟨2, ![64, 1]⟩
abbrev S1x32 : Shape := ⟨2, ![1, 32]⟩
abbrev S1x1 : Shape := ⟨2, ![1, 1]⟩

abbrev nBuf : Space → Nat
  | .hbm => 238
  | .vmem => 0
  | .smem => 0
  | _ => 0

abbrev hbmTy0_0 (i : Nat) : BufTy := match i % 128 with
  | 0 => ⟨S100000x7, .f32⟩
  | 1 => ⟨S2x1200000, .i32⟩
  | 2 => ⟨S100000, .i32⟩
  | 3 => ⟨S7x64, .f32⟩
  | 4 => ⟨S64, .f32⟩
  | 5 => ⟨S2x64x64, .f32⟩
  | 6 => ⟨S2x64, .f32⟩
  | 7 => ⟨S2x64, .f32⟩
  | 8 => ⟨S2x64, .f32⟩
  | 9 => ⟨S2x64, .f32⟩
  | 10 => ⟨S2x64, .f32⟩
  | 11 => ⟨S64x32, .f32⟩
  | 12 => ⟨S32, .f32⟩
  | 13 => ⟨S32x1, .f32⟩
  | 14 => ⟨S1, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S100000x64, .f32⟩
  | 21 => ⟨S100000x64, .f32⟩
  | 22 => ⟨S1x64x64, .f32⟩
  | 23 => ⟨S64x64, .f32⟩
  | 24 => ⟨S1x64, .f32⟩
  | 25 => ⟨S64, .f32⟩
  | 26 => ⟨S100000, .i32⟩
  | 27 => ⟨S1x1200000, .i32⟩
  | 28 => ⟨S1200000, .i32⟩
  | 29 => ⟨S1300000, .i32⟩
  | 30 => ⟨S1x1200000, .i32⟩
  | 31 => ⟨S1200000, .i32⟩
  | 32 => ⟨S1300000, .i32⟩
  | 33 => ⟨S_, .f32⟩
  | 34 => ⟨S1300000, .f32⟩
  | 35 => ⟨S_, .f32⟩
  | 36 => ⟨S100000, .f32⟩
  | 37 => ⟨S1300000x1, .i32⟩
  | 38 => ⟨S100000, .f32⟩
  | 39 => ⟨S_, .f32⟩
  | 40 => ⟨S100000, .f32⟩
  | 41 => ⟨S100000, .i1⟩
  | 42 => ⟨S_, .f32⟩
  | 43 => ⟨S100000, .f32⟩
  | 44 => ⟨S100000, .f32⟩
  | 45 => ⟨S100000, .f32⟩
  | 46 => ⟨S_, .f32⟩
  | 47 => ⟨S_, .f32⟩
  | 48 => ⟨S100000, .f32⟩
  | 49 => ⟨S100000, .f32⟩
  | 50 => ⟨S100000x64, .f32⟩
  | 51 => ⟨S_, .i32⟩
  | 52 => ⟨S1300000, .i32⟩
  | 53 => ⟨S1300000, .i1⟩
  | 54 => ⟨S_, .i32⟩
  | 55 => ⟨S1300000, .i32⟩
  | 56 => ⟨S1300000, .i32⟩
  | 57 => ⟨S1300000, .i32⟩
  | 58 => ⟨S1300000x1, .i32⟩
  | 59 => ⟨S1300000, .f32⟩
  | 60 => ⟨S_, .i32⟩
  | 61 => ⟨S1300000, .i32⟩
  | 62 => ⟨S1300000, .i1⟩
  | 63 => ⟨S_, .i32⟩
  | 64 => ⟨S1300000, .i32⟩
  | 65 => ⟨S1300000, .i32⟩
  | 66 => ⟨S1300000, .i32⟩
  | 67 => ⟨S1300000x1, .i32⟩
  | 68 => ⟨S1300000, .f32⟩
  | 69 => ⟨S1300000, .f32⟩
  | 70 => ⟨S1300000x1, .f32⟩
  | 71 => ⟨S_, .i32⟩
  | 72 => ⟨S1300000, .i32⟩
  | 73 => ⟨S1300000, .i1⟩
  | 74 => ⟨S_, .i32⟩
  | 75 => ⟨S1300000, .i32⟩
  | 76 => ⟨S1300000, .i32⟩
  | 77 => ⟨S1300000, .i32⟩
  | 78 => ⟨S1300000x1, .i32⟩
  | 79 => ⟨S1300000x64, .f32⟩
  | 80 => ⟨S1300000x64, .f32⟩
  | 81 => ⟨S1300000x64, .f32⟩
  | 82 => ⟨S_, .f32⟩
  | 83 => ⟨S100000x64, .f32⟩
  | 84 => ⟨S1300000x1, .i32⟩
  | 85 => ⟨S100000x64, .f32⟩
  | 86 => ⟨S1x64, .f32⟩
  | 87 => ⟨S100000x64, .f32⟩
  | 88 => ⟨S100000x64, .f32⟩
  | 89 => ⟨S1x64, .f32⟩
  | 90 => ⟨S64, .f32⟩
  | 91 => ⟨S1x64, .f32⟩
  | 92 => ⟨S100000x64, .f32⟩
  | 93 => ⟨S100000x64, .f32⟩
  | 94 => ⟨S1x64, .f32⟩
  | 95 => ⟨S64, .f32⟩
  | 96 => ⟨S_, .f32⟩
  | 97 => ⟨S64, .f32⟩
  | 98 => ⟨S64, .f32⟩
  | 99 => ⟨S64, .f32⟩
  | 100 => ⟨S1x64, .f32⟩
  | 101 => ⟨S100000x64, .f32⟩
  | 102 => ⟨S100000x64, .f32⟩
  | 103 => ⟨S1x64, .f32⟩
  | 104 => ⟨S64, .f32⟩
  | 105 => ⟨S1x64, .f32⟩
  | 106 => ⟨S100000x64, .f32⟩
  | 107 => ⟨S100000x64, .f32⟩
  | 108 => ⟨S1x64, .f32⟩
  | 109 => ⟨S64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S1x64x64, .f32⟩
  | 117 => ⟨S64x64, .f32⟩
  | 118 => ⟨S1x64, .f32⟩
  | 119 => ⟨S64, .f32⟩
  | 120 => ⟨S100000, .i32⟩
  | 121 => ⟨S1x1200000, .i32⟩
  | 122 => ⟨S1200000, .i32⟩
  | 123 => ⟨S1300000, .i32⟩
  | 124 => ⟨S1x1200000, .i32⟩
  | 125 => ⟨S1200000, .i32⟩
  | 126 => ⟨S1300000, .i32⟩
  | 127 => ⟨S_, .f32⟩
  | _ => ⟨S100000x7, .f32⟩

abbrev hbmTy0_1 (i : Nat) : BufTy := match i % 128 with
  | 0 => ⟨S1300000, .f32⟩
  | 1 => ⟨S_, .f32⟩
  | 2 => ⟨S100000, .f32⟩
  | 3 => ⟨S1300000x1, .i32⟩
  | 4 => ⟨S100000, .f32⟩
  | 5 => ⟨S_, .f32⟩
  | 6 => ⟨S100000, .f32⟩
  | 7 => ⟨S100000, .i1⟩
  | 8 => ⟨S_, .f32⟩
  | 9 => ⟨S100000, .f32⟩
  | 10 => ⟨S100000, .f32⟩
  | 11 => ⟨S100000, .f32⟩
  | 12 => ⟨S_, .f32⟩
  | 13 => ⟨S_, .f32⟩
  | 14 => ⟨S100000, .f32⟩
  | 15 => ⟨S100000, .f32⟩
  | 16 => ⟨S100000x64, .f32⟩
  | 17 => ⟨S_, .i32⟩
  | 18 => ⟨S1300000, .i32⟩
  | 19 => ⟨S1300000, .i1⟩
  | 20 => ⟨S_, .i32⟩
  | 21 => ⟨S1300000, .i32⟩
  | 22 => ⟨S1300000, .i32⟩
  | 23 => ⟨S1300000, .i32⟩
  | 24 => ⟨S1300000x1, .i32⟩
  | 25 => ⟨S1300000, .f32⟩
  | 26 => ⟨S_, .i32⟩
  | 27 => ⟨S1300000, .i32⟩
  | 28 => ⟨S1300000, .i1⟩
  | 29 => ⟨S_, .i32⟩
  | 30 => ⟨S1300000, .i32⟩
  | 31 => ⟨S1300000, .i32⟩
  | 32 => ⟨S1300000, .i32⟩
  | 33 => ⟨S1300000x1, .i32⟩
  | 34 => ⟨S1300000, .f32⟩
  | 35 => ⟨S1300000, .f32⟩
  | 36 => ⟨S1300000x1, .f32⟩
  | 37 => ⟨S_, .i32⟩
  | 38 => ⟨S1300000, .i32⟩
  | 39 => ⟨S1300000, .i1⟩
  | 40 => ⟨S_, .i32⟩
  | 41 => ⟨S1300000, .i32⟩
  | 42 => ⟨S1300000, .i32⟩
  | 43 => ⟨S1300000, .i32⟩
  | 44 => ⟨S1300000x1, .i32⟩
  | 45 => ⟨S1300000x64, .f32⟩
  | 46 => ⟨S1300000x64, .f32⟩
  | 47 => ⟨S1300000x64, .f32⟩
  | 48 => ⟨S_, .f32⟩
  | 49 => ⟨S100000x64, .f32⟩
  | 50 => ⟨S1300000x1, .i32⟩
  | 51 => ⟨S100000x64, .f32⟩
  | 52 => ⟨S1x64, .f32⟩
  | 53 => ⟨S100000x64, .f32⟩
  | 54 => ⟨S100000x64, .f32⟩
  | 55 => ⟨S1x64, .f32⟩
  | 56 => ⟨S64, .f32⟩
  | 57 => ⟨S1x64, .f32⟩
  | 58 => ⟨S100000x64, .f32⟩
  | 59 => ⟨S100000x64, .f32⟩
  | 60 => ⟨S1x64, .f32⟩
  | 61 => ⟨S64, .f32⟩
  | 62 => ⟨S_, .f32⟩
  | 63 => ⟨S64, .f32⟩
  | 64 => ⟨S64, .f32⟩
  | 65 => ⟨S64, .f32⟩
  | 66 => ⟨S1x64, .f32⟩
  | 67 => ⟨S100000x64, .f32⟩
  | 68 => ⟨S100000x64, .f32⟩
  | 69 => ⟨S1x64, .f32⟩
  | 70 => ⟨S64, .f32⟩
  | 71 => ⟨S1x64, .f32⟩
  | 72 => ⟨S100000x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .f32⟩
  | 84 => ⟨S64x64, .f32⟩
  | 85 => ⟨S100000x1, .i32⟩
  | 86 => ⟨S64x64, .f32⟩
  | 87 => ⟨S_, .f32⟩
  | 88 => ⟨S100000, .f32⟩
  | 89 => ⟨S_, .f32⟩
  | 90 => ⟨S64, .f32⟩
  | 91 => ⟨S100000x1, .i32⟩
  | 92 => ⟨S64, .f32⟩
  | 93 => ⟨S_, .f32⟩
  | 94 => ⟨S64, .f32⟩
  | 95 => ⟨S64, .f32⟩
  | 96 => ⟨S64x1, .f32⟩
  | 97 => ⟨S64x64, .f32⟩
  | 98 => ⟨S64x64, .f32⟩
  | 99 => ⟨S64x32, .f32⟩
  | 100 => ⟨S1x32, .f32⟩
  | 101 => ⟨S64x32, .f32⟩
  | 102 => ⟨S64x32, .f32⟩
  | 103 => ⟨S_, .f32⟩
  | 104 => ⟨S64x32, .f32⟩
  | 105 => ⟨S64x32, .f32⟩
  | 106 => ⟨S64x1, .f32⟩
  | 107 => ⟨S1x1, .f32⟩
  | 108 => ⟨S64x1, .f32⟩
  | 109 => ⟨S64x1, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_cst : Ref sig .tc := ⟨.hbm, 19, rfl⟩
abbrev main_call0_v0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_cst_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_v25 : Ref sig .tc := ⟨.hbm, 49, rfl⟩
abbrev main_v26 : Ref sig .tc := ⟨.hbm, 50, rfl⟩
abbrev main_c : Ref sig .tc := ⟨.hbm, 51, rfl⟩
abbrev main_v27 : Ref sig .tc := ⟨.hbm, 52, rfl⟩
abbrev main_v28 : Ref sig .tc := ⟨.hbm, 53, rfl⟩
abbrev main_c_4 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_7 : Ref sig .tc := ⟨.hbm, 71, rfl⟩
abbrev main_v43 : Ref sig .tc := ⟨.hbm, 72, rfl⟩
abbrev main_v44 : Ref sig .tc := ⟨.hbm, 73, rfl⟩
abbrev main_c_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_10 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_call2_cst : Ref sig .tc := ⟨.hbm, 113, rfl⟩
abbrev main_call2_v0 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_11 : Ref sig .tc := ⟨.hbm, 127, rfl⟩
abbrev main_v93 : Ref sig .tc := ⟨.hbm, 128, rfl⟩
abbrev main_cst_12 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_13 : Ref sig .tc := ⟨.hbm, 133, rfl⟩
abbrev main_v97 : Ref sig .tc := ⟨.hbm, 134, rfl⟩
abbrev main_v98 : Ref sig .tc := ⟨.hbm, 135, rfl⟩
abbrev main_cst_14 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_cst_15 : Ref sig .tc := ⟨.hbm, 140, rfl⟩
abbrev main_call3_v0 : Ref sig .tc := ⟨.hbm, 141, rfl⟩
abbrev main_call3_v1 : Ref sig .tc := ⟨.hbm, 142, rfl⟩
abbrev main_v102 : Ref sig .tc := ⟨.hbm, 143, rfl⟩
abbrev main_v103 : Ref sig .tc := ⟨.hbm, 144, rfl⟩
abbrev main_c_16 : Ref sig .tc := ⟨.hbm, 145, rfl⟩
abbrev main_v104 : Ref sig .tc := ⟨.hbm, 146, rfl⟩
abbrev main_v105 : Ref sig .tc := ⟨.hbm, 147, rfl⟩
abbrev main_c_17 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_c_18 : Ref sig .tc := ⟨.hbm, 154, rfl⟩
abbrev main_v111 : Ref sig .tc := ⟨.hbm, 155, rfl⟩
abbrev main_v112 : Ref sig .tc := ⟨.hbm, 156, rfl⟩
abbrev main_c_19 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_c_20 : Ref sig .tc := ⟨.hbm, 165, rfl⟩
abbrev main_v120 : Ref sig .tc := ⟨.hbm, 166, rfl⟩
abbrev main_v121 : Ref sig .tc := ⟨.hbm, 167, rfl⟩
abbrev main_c_21 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_22 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_23 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_call4_cst : Ref sig .tc := ⟨.hbm, 207, rfl⟩
abbrev main_call4_v0 : Ref sig .tc := ⟨.hbm, 208, rfl⟩
abbrev main_v158 : Ref sig .tc := ⟨.hbm, 209, rfl⟩
abbrev main_v159 : Ref sig .tc := ⟨.hbm, 210, rfl⟩
abbrev main_cst_24 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_cst_25 : Ref sig .tc := ⟨.hbm, 215, rfl⟩
abbrev main_v163 : Ref sig .tc := ⟨.hbm, 216, rfl⟩
abbrev main_cst_26 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_cst_27 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_call5_cst : Ref sig .tc := ⟨.hbm, 231, rfl⟩
abbrev main_call5_v0 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S_S100000 : S_.BroadcastsInDim S100000 (![] : Fin 0 → Fin S100000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S64 : S_.BroadcastsInDim S64 (![] : Fin 0 → Fin S64.rank)
  slices_S2x64x64_S1x64x64_1_0_0 : S2x64x64.Slices ![1, 0, 0] S1x64x64
  slices_S2x64_S1x64_1_0 : S2x64.Slices ![1, 0] S1x64
  bcast_S_S64x64 : S_.BroadcastsInDim S64x64 (![] : Fin 0 → Fin S64x64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S100000x7_S7x64_S100000x64_1_0_0_1_n_n_wf : DotDims.WF S100000x7 S7x64 S100000x64 [1] [0] [0] [1] [] []
  scatter_S100000_S1300000x1_S1300000_n_0_0_1_wf : ScatterDims.WF S100000 S1300000x1 S1300000 [] [0] [0] 1
  dot_S100000x64_S64x64_S100000x64_1_0_0_1_n_n_wf : DotDims.WF S100000x64 S64x64 S100000x64 [1] [0] [0] [1] [] []
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []

variable [Facts₀]

def dot_S100000x7_S7x64_S100000x64_1_0_0_1_n_n : DotDims S100000x7 S7x64 S100000x64 where
  lhsContracting := [1]
  rhsContracting := [0]
  lhsNonContracting := [0]
  rhsNonContracting := [1]
  lhsBatch := []
  rhsBatch := []
  wf := dot_S100000x7_S7x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.KernelRun.lean ====
/-
  The idealized kernel's run with every buffer named. @main is fourteen segments: stretches of host operations and
  six tiled launches, each launch leaving its output array at what its blocks wrote and every other buffer as it found
  it. The contents after the last segment are a fold over these segments from the launch memory; every weakly fair
  execution ends with each unscoped buffer at that fold. The result array is then one more read of the fold.
-/
import proofs.«172421_j61418032333218_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at the
    contents the fold over the segments gives after the last launch. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c => h c)

/-- The result array after the run is the fold's contents at the last launch's output, and the fifteen arguments end as
    launched. -/
theorem run_result : θ_run defs (onTc (τ := τ) (main (F := F))) ⟨m, fun _ => 0, ρ⟩ (fun r => ∀ c : Dev nD,
      r.2.mem ((c.tc : Thread nD τ).loc main_v144) = W14 m ρ c (Proc.devRef .tc main_v144)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun s h c =>
      ⟨h c _ (mem_uc main_v144 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c)⟩)
    (run_all m ρ)

end Cert.KernelIdeal.Hand

end
-- ==== Proof.Spec.lean ====
/-
  The five dense pieces of the network, each as ONE whole-array function of the arrays it reads, over the
  extended reals, spelt with the host operations the reference applies:
    proj    x W b              = max (x · W + b, 0)                      [100000,7]·[7,64] + row [1,64]
    mm      h W                = h · W                                    [100000,64]·[64,64]
    bnrelu  o b μ v γ β        = max ((o + b − μ) · rsqrt (v + ε) · γ + β, 0)   rows [1,64] broadcast down the nodes
    bnres   o b μ v γ β hprev  = hprev + bnrelu o b μ v γ β
    mlp     p W1 b1 W2 b2      = max (p · W1 + b1, 0) · W2 + b2           [64,64]·[64,32]·[32,1]
  The matrix products are sums of products over the contracted axis; every other step is pointwise after the
  rows have been repeated down the long axis. ε is the one f32 literal 1e-5 both programs carry.
-/
import proofs.«172421_j61418032333218_1_alg».proof.Proof.Gen.ReferenceIdeal
import Idealize.ShloMosaic.PureOps.Ideal

noncomputable section

namespace Cert.Spec

open Idealize.ShloMosaic Cert.ReferenceIdeal Cert.ReferenceIdeal.Gen

/-- A row [1,64] repeated down the 100000 nodes. -/
abbrev down (r : FVec Ideal S1x64 .f32) : FVec Ideal S100000x64 .f32 :=
  broadcastInDim S100000x64 ![0, 1] bcast_S1x64_S100000x64_0_1 r

/-- The all-zero [100000,64] array a ReLU compares with. -/
abbrev zeros : FVec Ideal S100000x64 .f32 :=
  broadcastInDim S100000x64 ![] bcast_S_S100000x64 (constant (F := Ideal) S_ .f32 0x00000000#32)

theorem eps_row_ok : S_.BroadcastsInDim S1x64 ![] := by decide

/-- ε as a row [1,64]. -/
abbrev epsRow : FVec Ideal S1x64 .f32 :=
  broadcastInDim S1x64 ![] eps_row_ok (constant (F := Ideal) S_ .f32 0x3727C5AC#32)

/-- The input projection: max (x · W + b, 0). -/
def proj (x : FVec Ideal S100000x7 .f32) (w : FVec Ideal S7x64 .f32) (b : FVec Ideal S1x64 .f32) : FVec Ideal S100000x64 .f32 :=
  maximumf (addf (Host.dotGeneral (F := Ideal) dot_S100000x7_S7x64_S100000x64_1_0_0_1_n_n none x w) (down b)) zeros

/-- A layer's dense product h · W. -/
def mm (h : FVec Ideal S100000x64 .f32) (w : FVec Ideal S64x64 .f32) : FVec Ideal S100000x64 .f32 :=
  Host.dotGeneral (F := Ideal) dot_S100000x64_S64x64_S100000x64_1_0_0_1_n_n none h w

/-- Bias, batch normalisation with running statistics, ReLU: max ((o + b − μ) · rsqrt (v + ε) · γ + β, 0). -/
def bnrelu (o : FVec Ideal S100000x64 .f32) (b mean var gamma beta : FVec Ideal S1x64 .f32) : FVec Ideal S100000x64 .f32 :=
  maximumf (addf (mulf (mulf (subf (addf o (down b)) (down mean)) (down (Host.rsqrt (F := Ideal) (addf var epsRow)))) (down gamma)) (down beta)) zeros

/-- The same with the residual added in front: hprev + bnrelu …. -/
def bnres (o : FVec Ideal S100000x64 .f32) (b mean var gamma beta : FVec Ideal S1x64 .f32) (hprev : FVec Ideal S100000x64 .f32) : FVec Ideal S100000x64 .f32 :=
  addf hprev (bnrelu o b mean var gamma beta)

/-- The head: max (p · W1 + b1, 0) · W2 + b2. -/
def mlp (p : FVec Ideal S64x64 .f32) (w1 : FVec Ideal S64x32 .f32) (b1 : FVec Ideal S1x32 .f32) (w2 : FVec Ideal S32x1 .f32) (b2 : FVec Ideal S1x1 .f32) : FVec Ideal S64x1 .f32 :=
  addf (Host.dotGeneral (F := Ideal) dot_S64x32_S32x1_S64x1_1_0_0_1_n_n none
      (maximumf (addf (Host.dotGeneral (F := Ideal) dot_S64x64_S64x32_S64x32_1_0_0_1_n_n none p w1)
          (broadcastInDim S64x32 ![0, 1] bcast_S1x32_S64x32_0_1 b1))
        (broadcastInDim S64x32 ![] bcast_S_S64x32 (constant (F := Ideal) S_ .f32 0x00000000#32))) w2)
    (broadcastInDim S64x1 ![0, 1] bcast_S1x1_S64x1_0_1 b2)

end Cert.Spec

end
-- ==== Proof.Region0.lean ====
/-
  The input projection, region 0 of the network: over the extended reals the array the region leaves is
      max (x · W_in + b_in, 0)
  of the arrays the region finds — the node features x [100000,7], the weights W_in [7,64] and the bias as a row
  [1,64]. The region walks the 100000 nodes in 20 blocks of 5000 rows; at each block it forms the product of the
  block's rows with the whole weight matrix (a sum of 7 products per entry, into a zero accumulator), adds the
  bias row repeated down the block, and compares with zero. Row p of block t is node 5000·t + p, the blocks tile
  the nodes, so the 20 write-backs together are the whole-array function, entry by entry.
-/
import proofs.«172421_j61418032333218_1_alg».proof.Proof.Gen.KernelIdeal.Frame
import proofs.«172421_j61418032333218_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## The block's arithmetic at an index -/

/-- The dimension numbers of the block's product [5000,7]·[7,64]. -/
abbrev D : DotDims S5000x7 S7x64 S5000x64 := dot_S5000x7_S7x64_S5000x64_1_0_0_1_n_n

theorem D_lhs_row (i : S5000x64.Idx) (k : D.contr.Idx) : (D.lhsIdx i k 0).val = (i 0).val := by
  unfold DotDims.lhsIdx
  rw [dif_neg (show ¬(0 : Fin S5000x7.rank) ∈ D.lhsBatch by decide), dif_pos (show (0 : Fin S5000x7.rank) ∈ D.lhsNonContracting by decide)]
  rfl
theorem D_lhs_col (i : S5000x64.Idx) (k : D.contr.Idx) : (D.lhsIdx i k 1).val = (k ⟨0, by decide⟩).val :=
  D.lhsIdx_val_of_single rfl i k
theorem D_rhs_row (i : S5000x64.Idx) (k : D.contr.Idx) : (D.rhsIdx i k 0).val = (k ⟨0, by decide⟩).val :=
  D.rhsIdx_val_of_single rfl i k
theorem D_rhs_col (i : S5000x64.Idx) (k : D.contr.Idx) : (D.rhsIdx i k 1).val = (i 1).val := by
  unfold DotDims.rhsIdx
  rw [dif_neg (show ¬(1 : Fin S7x64.rank) ∈ D.rhsBatch by decide), dif_pos (show (1 : Fin S7x64.rank) ∈ D.rhsNonContracting by decide)]
  rfl

/-- The block's product into the zero accumulator, at row `p` and column `q`: the sum over the 7 input features. -/
theorem block_matmul_apply (a : FVec Ideal S5000x7 .bf16) (b : FVec Ideal S7x64 .bf16) (p : Fin 5000) (q : Fin 64) :
    matmul D none a b (constant S5000x64 .f32 0x00000000#32) (ix2 p q) = ∑ k : Fin 7, a (ix2 p k) * b (ix2 k q) := by
  simp only [matmul]
  rw [Ideal.matmul_constant_zero_apply, ← Equiv.sum_comp (contrEquiv1 D 7 rfl rfl).symm]
  refine Finset.sum_congr rfl fun k _ => ?_
  have hk := contrEquiv1_symm_val D 7 rfl rfl k
  have el : D.lhsIdx (ix2 p q) ((contrEquiv1 D 7 rfl rfl).symm k) = ix2 p k := funext fun a => Fin.ext (by
    match a with
    | ⟨0, _⟩ => exact D_lhs_row _ _
    | ⟨1, _⟩ => exact (D_lhs_col _ _).trans hk)
  have er : D.rhsIdx (ix2 p q) ((contrEquiv1 D 7 rfl rfl).symm k) = ix2 k q := funext fun a => Fin.ext (by
    match a with
    | ⟨0, _⟩ => exact (D_rhs_row _ _).trans hk
    | ⟨1, _⟩ => exact D_rhs_col _ _)
  rw [el, er]

/-- The bias row repeated down the block's 5000 rows, read at row `p`, column `q`. -/
theorem block_bias_apply (x : FVec Ideal S1x64 .f32) (p : Fin 5000) (q : Fin 64) :
    broadcastTo S5000x64 x broadcasts_S1x64_S5000x64 (ix2 p q) = x (ix2 0 q) :=
  broadcastTo_apply x broadcasts_S1x64_S5000x64 (ix2 p q) (ix2 0 q) (fun a => by
    match a with
    | ⟨0, _⟩ => rfl
    | ⟨1, _⟩ => rfl)

/-- The projection block's payload at an index: max (Σₖ x[p,k]·W[k,q] + b[0,q], 0). -/
theorem pay_apply (x0 : Vec Ideal S5000x7 .f32) (x1 : Vec Ideal S7x64 .f32) (x2 : Vec Ideal S1x64 .f32) (p : Fin 5000) (q : Fin 64) :
    Gen.k0_pay1 x0 x1 x2 (ix2 p q) = max ((∑ k : Fin 7, x0 (ix2 p k) * x1 (ix2 k q)) + x2 (ix2 0 q)) 0 := by
  unfold Gen.k0_pay1
  simp only [shapeCast_self]
  rw [maximumf_apply, addf_apply, block_matmul_apply, block_bias_apply, broadcast_apply]
  simp only [truncf_apply]
  exact congrArg (max _) Ideal.ofBits_zero_f32

/-! ## The whole-array projection at an index -/

/-- The dimension numbers of the whole product [100000,7]·[7,64]. -/
abbrev DR : DotDims S100000x7 S7x64 S100000x64 := Cert.ReferenceIdeal.dot_S100000x7_S7x64_S100000x64_1_0_0_1_n_n

theorem DR_lhs_row (i : S100000x64.Idx) (k : DR.contr.Idx) : (DR.lhsIdx i k 0).val = (i 0).val := by
  unfold DotDims.lhsIdx
  rw [dif_neg (show ¬(0 : Fin S100000x7.rank) ∈ DR.lhsBatch by decide), dif_pos (show (0 : Fin S100000x7.rank) ∈ DR.lhsNonContracting by decide)]
  rfl
theorem DR_lhs_col (i : S100000x64.Idx) (k : DR.contr.Idx) : (DR.lhsIdx i k 1).val = (k ⟨0, by decide⟩).val :=
  DR.lhsIdx_val_of_single rfl i k
theorem DR_rhs_row (i : S100000x64.Idx) (k : DR.contr.Idx) : (DR.rhsIdx i k 0).val = (k ⟨0, by decide⟩).val :=
  DR.rhsIdx_val_of_single rfl i k
theorem DR_rhs_col (i : S100000x64.Idx) (k : DR.contr.Idx) : (DR.rhsIdx i k 1).val = (i 1).val := by
  unfold DotDims.rhsIdx
  rw [dif_neg (show ¬(1 : Fin S7x64.rank) ∈ DR.rhsBatch by decide), dif_pos (show (1 : Fin S7x64.rank) ∈ DR.rhsNonContracting by decide)]
  rfl

/-- The whole product at node `r` and column `q`: the sum over the 7 input features. -/
theorem whole_matmul_apply (a : FVec Ideal S100000x7 .f32) (b : FVec Ideal S7x64 .f32) (r : Fin 100000) (q : Fin 64) :
    Host.dotGeneral (F := Ideal) DR none a b (ix2 r q) = ∑ k : Fin 7, a (ix2 r k) * b (ix2 k q) := by
  simp only [Host.dotGeneral]
  rw [Ideal.dotGeneral_apply, ← Equiv.sum_comp (contrEquiv1 DR 7 rfl rfl).symm]
  refine Finset.sum_congr rfl fun k _ => ?_
  have hk := contrEquiv1_symm_val DR 7 rfl rfl k
  have el : DR.lhsIdx (ix2 r q) ((contrEquiv1 DR 7 rfl rfl).symm k) = ix2 r k := funext fun a => Fin.ext (by
    match a with
    | ⟨0, _⟩ => exact DR_lhs_row _ _
    | ⟨1, _⟩ => exact (DR_lhs_col _ _).trans hk)
  have er : DR.rhsIdx (ix2 r q) ((contrEquiv1 DR 7 rfl rfl).symm k) = ix2 k q := funext fun a => Fin.ext (by
    match a with
    | ⟨0, _⟩ => exact (DR_rhs_row _ _).trans hk
    | ⟨1, _⟩ => exact DR_rhs_col _ _)
  rw [el, er]

/-- The bias row repeated down the 100000 nodes, read at node `r`, column `q`. -/
theorem down_apply (x : FVec Ideal S1x64 .f32) (r : Fin 100000) (q : Fin 64) :
    Cert.Spec.down x (ix2 r q) = x (ix2 0 q) :=
  broadcastInDim_apply _ _ x (ix2 r q) (ix2 0 q) (fun a => by
    match a with
    | ⟨0, _⟩ => rfl
    | ⟨1, _⟩ => rfl)

/-- The zero array is zero everywhere. -/
theorem zeros_apply (i : S100000x64.Idx) : Cert.Spec.zeros i = 0 :=
  (broadcastInDim_apply _ _ (constant (F := Ideal) Cert.ReferenceIdeal.S_ .f32 0x00000000#32) i ix0 (fun a => a.elim0)).trans
    Ideal.ofBits_zero_f32

/-- The whole-array projection at node `r`, column `q`: max (Σₖ x[r,k]·W[k,q] + b[0,q], 0). -/
theorem proj_apply (X : FVec Ideal S100000x7 .f32) (W : FVec Ideal S7x64 .f32) (B : FVec Ideal S1x64 .f32) (r : Fin 100000) (q : Fin 64) :
    Cert.Spec.proj X W B (ix2 r q) = max ((∑ k : Fin 7, X (ix2 r k) * W (ix2 k q)) + B (ix2 0 q)) 0 := by
  unfold Cert.Spec.proj
  rw [maximumf_apply, addf_apply, zeros_apply, down_apply]
  exact congrArg (fun s => max (s + B (ix2 0 q)) 0) (whole_matmul_apply X W r q)

/-! ## From the blocks to the array -/

/-- The printed index maps over the 20 points: the node windows (input rows, output rows) sit at block `t` of the long
    axis, the two parameter windows at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input rows' block at point `t`: its row `p` is node `5000·t + p` of the array. -/
theorem x_block_apply (c : Dev nD) (t : Fin cfg0.N) (p : Fin 5000) (k : Fin 7) (r : Fin 100000) (hr : r.val = t.val * 5000 + p.val) :
    (Gen.iblk0 V c 0 t : Vec Ideal S5000x7 .f32) (ix2 p k) = (V c (Pipeline.arrRef spec0 0) : S100000x7.Idx → Ideal .f32) (ix2 r k) := by
  obtain ⟨e0, e1, -⟩ := idx_facts t
  show (V c (Pipeline.arrRef spec0 0) : S100000x7.Idx → Ideal .f32) (((cfg0.win 0).blk t).view.emb (ix2 p k))
    = (V c (Pipeline.arrRef spec0 0) : S100000x7.Idx → Ideal .f32) (ix2 r k)
  congr 1
  funext a; apply Fin.ext
  match a with
  | ⟨0, _⟩ => show win0_0.index t (0 : Fin 2) * 5000 + 1 * p.val = r.val; omega
  | ⟨1, _⟩ => show win0_0.index t (1 : Fin 2) * 7 + 1 * k.val = k.val; omega

/-- The weights' block at any point is the whole [7,64] array. -/
theorem w_block_apply (c : Dev nD) (t : Fin cfg0.N) (k : Fin 7) (q : Fin 64) :
    (Gen.iblk0 V c 1 t : Vec Ideal S7x64 .f32) (ix2 k q) = (V c (Pipeline.arrRef spec0 1) : S7x64.Idx → Ideal .f32) (ix2 k q) := by
  obtain ⟨-, -, e2, e3, -⟩ := idx_facts t
  show (V c (Pipeline.arrRef spec0 1) : S7x64.Idx → Ideal .f32) (((cfg0.win 1).blk t).view.emb (ix2 k q))
    = (V c (Pipeline.arrRef spec0 1) : S7x64.Idx → Ideal .f32) (ix2 k q)
  congr 1
  funext a; apply Fin.ext
  match a with
  | ⟨0, _⟩ => show win0_1.index t (0 : Fin 2) * 7 + 1 * k.val = k.val; omega
  | ⟨1, _⟩ => show win0_1.index t (1 : Fin 2) * 64 + 1 * q.val = q.val; omega

/-- The bias row's block at any point is the whole [1,64] row. -/
theorem b_block_apply (c : Dev nD) (t : Fin cfg0.N) (z : Fin 1) (q : Fin 64) :
    (Gen.iblk0 V c 2 t : Vec Ideal S1x64 .f32) (ix2 z q) = (V c (Pipeline.arrRef spec0 2) : S1x64.Idx → Ideal .f32) (ix2 z q) := by
  obtain ⟨-, -, -, -, e4, e5, -⟩ := idx_facts t
  show (V c (Pipeline.arrRef spec0 2) : S1x64.Idx → Ideal .f32) (((cfg0.win 2).blk t).view.emb (ix2 z q))
    = (V c (Pipeline.arrRef spec0 2) : S1x64.Idx → Ideal .f32) (ix2 z q)
  congr 1
  funext a; apply Fin.ext
  match a with
  | ⟨0, _⟩ => show win0_2.index t (0 : Fin 2) * 1 + 1 * z.val = z.val; omega
  | ⟨1, _⟩ => show win0_2.index t (1 : Fin 2) * 64 + 1 * q.val = q.val; omega

/-- An element of the output's block at point `t` sits at node `5000·t + p`. -/
theorem out_emb (t : Fin cfg0.N) (p : Fin 5000) (q : Fin 64) (r : Fin 100000) (hr : r.val = t.val * 5000 + p.val) :
    ((cfg0.win 3).blk t).view.emb (ix2 p q) = (ix2 r q : S100000x64.Idx) := by
  obtain ⟨-, -, -, -, -, -, e6, e7⟩ := idx_facts t
  funext a; apply Fin.ext
  match a with
  | ⟨0, _⟩ => show win0_3.index t (0 : Fin 2) * 5000 + 1 * p.val = r.val; omega
  | ⟨1, _⟩ => show win0_3.index t (1 : Fin 2) * 64 + 1 * q.val = q.val; omega

/-- WHAT POINT `t` WRITES BACK is block `t` of the whole-array projection of the arrays as the region finds them. -/
theorem flushed_eq (c : Dev nD) (t : Fin cfg0.N) :
    (Gen.dat0 (F := Ideal) V c).flushed 3 t = ((cfg0.win 3).blk t).view.read (Elt Ideal)
      (Cert.Spec.proj (V c (Pipeline.arrRef spec0 0)) (V c (Pipeline.arrRef spec0 1)) (V c (Pipeline.arrRef spec0 2))) := by
  show (cfg0.win 3).cut (grid0.coords t) ((Gen.dat0 V c).after 3 t) = _
  rw [Gen.after0_3]
  unfold Gen.out0_3
  rw [View.canon_unit_zero hz]
  simp only [View.ld_unit_zero (S := S5000x7) hz, View.ld_unit_zero (S := S7x64) hz, View.ld_unit_zero (S := S1x64) hz]
  refine funext fun (j : S5000x64.Idx) => ?_
  obtain ⟨p, q, rfl⟩ : ∃ (p : Fin 5000) (q : Fin 64), j = ix2 p q := ⟨j 0, j 1, eq_ix2 j⟩
  have hN : cfg0.N = 20 := Gen.N_0
  have ht : t.val < 20 := hN ▸ t.isLt
  show Gen.k0_pay1 (Gen.iblk0 V c 0 t) (Gen.iblk0 V c 1 t) (Gen.iblk0 V c 2 t) (ix2 p q)
    = Cert.Spec.proj _ _ _ (((cfg0.win 3).blk t).view.emb (ix2 p q))
  rw [out_emb t p q ⟨t.val * 5000 + p.val, by omega⟩ rfl, pay_apply, proj_apply, b_block_apply]
  refine congrArg (fun s => max (s + _) 0) (Finset.sum_congr rfl fun k _ => ?_)
  rw [x_block_apply V c t p k ⟨t.val * 5000 + p.val, by omega⟩ rfl, w_block_apply]

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Every node's row is in the block of the point `row / 5000`. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := Gen.N_0
  have hlt : (i 0).val / 5000 < cfg0.N := by rw [hN]; omega
  obtain ⟨-, -, -, -, -, -, e6, e7⟩ := idx_facts ⟨(i 0).val / 5000, hlt⟩
  refine ⟨⟨(i 0).val / 5000, hlt⟩, Gen.flush0_3 _, ?_⟩
  rw [mem_blk]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    rw [e7]; omega

/-- THE ARRAY after the region: the whole-array projection of the arrays as the region finds them. -/
theorem final (c : Dev nD) : (Gen.dat0 (F := Ideal) V c).arrAt 3 cfg0.N
    = Cert.Spec.proj (V c (Pipeline.arrRef spec0 0)) (V c (Pipeline.arrRef spec0 1)) (V c (Pipeline.arrRef spec0 2)) :=
  (Gen.dat0 (F := Ideal) V c).arrAt_eq_of_cover 3 _ (fun t _ => flushed_eq V c t) cover

end Cert.KernelIdeal.Region0

end
-- ==== Proof.Region1.lean ====
/-
  The first dense product, h · W over [100000,64]·[64,64], computed 5000 rows at a time: grid point t loads rows
  5000·t … 5000·t + 4999 of h and the whole of W, multiplies them on the matrix unit into a zero accumulator, and writes
  the same rows of the output. At the extended reals the block product at (p, q) is the sum over k of h[5000·t + p, k] ·
  W[k, q], which is the whole product at row 5000·t + p; the twenty blocks tile the array, so the output array ends at
  h · W.
-/
import proofs.«172421_j61418032333218_1_alg».proof.Proof.Gen.KernelIdeal.Frame
import proofs.«172421_j61418032333218_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-! The operand indices of the two products, coordinate by coordinate: row i₀ and column k on the left, row k and column i₁ on the right. -/

theorem whole_lhs0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem whole_lhs1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem whole_rhs0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem whole_rhs1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

theorem blk_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem blk_lhs1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem blk_rhs0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem blk_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The whole product read at an index: the sum over k of h[i₀, k] · W[k, i₁]. -/
theorem mm_apply (h : FVec Ideal S100000x64 .f32) (w : FVec Ideal S64x64 .f32) (j : S100000x64.Idx) :
    Cert.Spec.mm h w j = ∑ k : Fin 64, h (ix2 (j 0) k) * w (ix2 k (j 1)) := by
  unfold Cert.Spec.mm
  simp only [Host.dotGeneral]
  rw [Ideal.dotGeneral_apply]
  rw [← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx j ((contrEquiv1 Cert.ReferenceIdeal.dot_S100000x64_S64x64_S100000x64_1_0_0_1_n_n 64 rfl rfl).symm k) = ix2 (j 0) k := funext fun a => Fin.ext (by
    match a with
    | ⟨0, _⟩ => exact whole_lhs0 _ _
    | ⟨1, _⟩ => exact (whole_lhs1 _ _).trans hk)
  have er : Cert.ReferenceIdeal.dot_S100000x64_S64x64_S100000x64_1_0_0_1_n_n.rhsIdx j ((contrEquiv1 Cert.ReferenceIdeal.dot_S100000x64_S64x64_S100000x64_1_0_0_1_n_n 64 rfl rfl).symm k) = ix2 k (j 1) := funext fun a => Fin.ext (by
    match a with
    | ⟨0, _⟩ => exact (whole_rhs0 _ _).trans hk
    | ⟨1, _⟩ => exact whole_rhs1 _ _)
  rw [el, er]
  rfl

/-- The block product read at an index: the sum over k of x[j₀, k] · w[k, j₁]; the two casts to the matrix unit's input
    format change nothing at the extended reals. -/
theorem pay_apply (x : Vec Ideal S5000x64 .f32) (w : Vec Ideal S64x64 .f32) (j : S5000x64.Idx) :
    k1_pay1 (F := Ideal) x w j = ∑ k : Fin 64, x (ix2 (j 0) k) * w (ix2 k (j 1)) := by
  unfold k1_pay1
  simp only [shapeCast_self]
  refine (Ideal.matmul_constant_zero_apply dot_S5000x64_S64x64_S5000x64_1_0_0_1_n_n none _ _ j).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx j ((contrEquiv1 dot_S5000x64_S64x64_S5000x64_1_0_0_1_n_n 64 rfl rfl).symm k) = ix2 (j 0) k := funext fun a => Fin.ext (by
    match a with
    | ⟨0, _⟩ => exact blk_lhs0 _ _
    | ⟨1, _⟩ => exact (blk_lhs1 _ _).trans hk)
  have er : dot_S5000x64_S64x64_S5000x64_1_0_0_1_n_n.rhsIdx j ((contrEquiv1 dot_S5000x64_S64x64_S5000x64_1_0_0_1_n_n 64 rfl rfl).symm k) = ix2 k (j 1) := funext fun a => Fin.ext (by
    match a with
    | ⟨0, _⟩ => exact (blk_rhs0 _ _).trans hk
    | ⟨1, _⟩ => exact blk_rhs1 _ _)
  rw [el, er]
  rfl

variable (V : (c : Dev nD) → (b : Ref sig .tc) → Buf (Elt Ideal) ((c : Thread nD τ).loc b))

/-- The index maps over the grid: the row windows sit at block (t, 0), the weight window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An element of the row block at point t is the array's element 5000·t rows further down. -/
theorem rows_read (c : Dev nD) (t : Fin cfg1.N) (y : S5000x64.Idx) (i : S100000x64.Idx)
    (h0 : (i 0).val = t.val * 5000 + (y 0).val) (h1 : (i 1).val = (y 1).val) :
    iblk1 V c 0 t y = V c (Pipeline.arrRef spec1 0) i := by
  obtain ⟨e0, e1, -, -, -, -⟩ := idx_facts t
  show V c (Pipeline.arrRef spec1 0) (((cfg1.win 0).blk t).view.emb y) = V c (Pipeline.arrRef spec1 0) i
  refine congrArg (V c (Pipeline.arrRef spec1 0)) (funext fun a => Fin.ext ?_)
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- The weight block at every point is the whole weight array. -/
theorem weights_read (c : Dev nD) (t : Fin cfg1.N) (y i : S64x64.Idx)
    (h0 : (i 0).val = (y 0).val) (h1 : (i 1).val = (y 1).val) :
    iblk1 V c 1 t y = V c (Pipeline.arrRef spec1 1) i := by
  obtain ⟨-, -, e2, e3, -, -⟩ := idx_facts t
  show V c (Pipeline.arrRef spec1 1) (((cfg1.win 1).blk t).view.emb y) = V c (Pipeline.arrRef spec1 1) i
  refine congrArg (V c (Pipeline.arrRef spec1 1)) (funext fun a => Fin.ext ?_)
  match a with
  | ⟨0, _⟩ => show win1_1.index t (0 : Fin 2) * 64 + 1 * (y 0).val = (i 0).val; omega
  | ⟨1, _⟩ => show win1_1.index t (1 : Fin 2) * 64 + 1 * (y 1).val = (i 1).val; omega

/-- What point t writes back is block t of the whole product. -/
theorem flushed_eq (c : Dev nD) (t : Fin cfg1.N) :
    (dat1 V c).flushed 2 t = ((cfg1.win 2).blk t).view.read (Elt Ideal)
      (Cert.Spec.mm (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨-, -, -, -, e4, e5⟩ := idx_facts t
  funext j
  show k1_pay1 (iblk1 V c 0 t) (iblk1 V c 1 t) j
    = Cert.Spec.mm (V c (Pipeline.arrRef spec1 0)) (V c (Pipeline.arrRef spec1 1)) (((cfg1.win 2).blk t).view.emb j)
  refine (pay_apply (iblk1 V c 0 t) (iblk1 V c 1 t) j).trans ?_
  rw [mm_apply]
  refine Finset.sum_congr rfl fun k _ => ?_
  have hr0 : ((((cfg1.win 2).blk t).view.emb j) 0).val = t.val * 5000 + (j 0).val := by
    show win1_2.index t (0 : Fin 2) * 5000 + 1 * (j 0).val = _; omega
  have hr1 : ((((cfg1.win 2).blk t).view.emb j) 1).val = (j 1).val := by
    show win1_2.index t (1 : Fin 2) * 64 + 1 * (j 1).val = _; omega
  rw [rows_read V c t (ix2 (j 0) k) (ix2 ((((cfg1.win 2).blk t).view.emb j) 0) k) hr0 rfl,
    weights_read V c t (ix2 k (j 1)) (ix2 k ((((cfg1.win 2).blk t).view.emb j) 1)) rfl hr1]

/-- An index of the array is in point t's block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v21).slice (win1_2.rect t)).set ↔ _
  rw [View.set_slice_whole, Rect.mem_set_unit]
  exact Iff.rfl

/-- Row r lies in the block of point r / 5000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  rw [mem_blk]
  obtain ⟨-, -, -, -, e4, e5⟩ := idx_facts ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 64 ≤ (i 1).val ∧ (i 1).val < win1_2.index _ (1 : Fin 2) * 64 + 64
    rw [e5]; omega

/-- The output array after the launch is the whole product of the two arrays the launch found. -/
theorem final (c : Dev nD) : (dat1 (F := Ideal) V c).arrAt 2 cfg1.N
    = Cert.Spec.mm (V c (Pipeline.arrRef spec1 0)) (V c (Pipeline.arrRef spec1 1)) :=
  (dat1 V c).arrAt_eq_of_cover 2 _ (fun t _ => flushed_eq V c t) cover

end Cert.KernelIdeal.Region1

end
-- ==== Proof.Region2.lean ====
/-
  The first normalisation layer, as one whole-array equation.

  The region reads the layer's dense product o [100000,64] and five rows [1,64] — bias b, running mean μ, running
  variance v, scale γ, shift β — twenty blocks of 5000 rows at a time, and at each block stores
      max ((o + b − μ) · rsqrt (v + ε) · γ + β, 0),
  the rows repeated down the block and the reciprocal root taken on the row before it is repeated. Read entry by
  entry, the stored block at point t is rows 5000 t … 5000 t + 4999 of the specification of the six arrays; the
  twenty blocks tile the array (row r lies in block r / 5000), so the array the region leaves is the specification.
-/
import proofs.«172421_j61418032333218_1_alg».proof.Proof.Gen.KernelIdeal.Frame
import proofs.«172421_j61418032333218_1_alg».proof.Proof.Spec
import Idealize.ShloMosaic.Lib.Pipeline.Value
import Idealize.ShloMosaic.Lib.ValueIdx
import Idealize.ShloMosaic.Lib.KernelVsHost

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-- One entry of the normalised, rectified layer: max ((o + b − μ) · rsqrt (v + ε) · γ + β, 0). -/
def elem (o b mu va ga be : EReal) : EReal :=
  max ((o + b - mu) * Ideal.rsqrt (va + Ideal.ofBits .f32 0x3727C5AC#32) * ga + be) (Ideal.ofBits .f32 0x00000000#32)

/-- A row [1,64] laid down 5000 rows, read at (p, q), is the row at (0, q). -/
theorem row_apply (v : S1x64.Idx → EReal) (h : S1x64.Broadcasts S5000x64) (p : Fin 5000) (q : Fin 64) :
    broadcastTo S5000x64 v h (ix2 p q) = v (ix2 (0 : Fin 1) q) :=
  broadcastTo_apply v h (ix2 p q) (ix2 (0 : Fin 1) q) (fun a => by
    match a with
    | ⟨0, _⟩ => rfl
    | ⟨1, _⟩ => rfl)

/-- The body's stored value at (p, q). -/
theorem pay_apply (x0 : Vec Ideal S5000x64 .f32) (x1 x2 x3 x4 x5 : Vec Ideal S1x64 .f32) (p : Fin 5000) (q : Fin 64) :
    k2_pay1 x0 x1 x2 x3 x4 x5 (ix2 p q)
      = elem (x0 (ix2 p q)) (x1 (ix2 (0 : Fin 1) q)) (x2 (ix2 (0 : Fin 1) q)) (x3 (ix2 (0 : Fin 1) q)) (x4 (ix2 (0 : Fin 1) q)) (x5 (ix2 (0 : Fin 1) q)) := by
  unfold k2_pay1
  simp only [shapeCast_self]
  show max ((x0 (ix2 p q) + broadcastTo S5000x64 x1 _ (ix2 p q) - broadcastTo S5000x64 x2 _ (ix2 p q))
        * broadcastTo S5000x64 (rsqrt (addf x3 (broadcast S1x64 (Scalar.ofBits (F := Ideal) .f32 0x3727C5AC#32))) : FVec Ideal S1x64 .f32) _ (ix2 p q)
        * broadcastTo S5000x64 x4 _ (ix2 p q) + broadcastTo S5000x64 x5 _ (ix2 p q)) (Ideal.ofBits .f32 0x00000000#32) = _
  rw [row_apply, row_apply, row_apply, row_apply, row_apply]
  rfl

/-- The specification at (r, q). -/
theorem spec_apply (o : FVec Ideal Cert.ReferenceIdeal.S100000x64 .f32) (b mean var gamma beta : FVec Ideal Cert.ReferenceIdeal.S1x64 .f32)
    (r : Fin 100000) (q : Fin 64) :
    Cert.Spec.bnrelu o b mean var gamma beta (ix2 r q)
      = elem (o (ix2 r q)) (b (ix2 (0 : Fin 1) q)) (mean (ix2 (0 : Fin 1) q)) (var (ix2 (0 : Fin 1) q)) (gamma (ix2 (0 : Fin 1) q)) (beta (ix2 (0 : Fin 1) q)) := by
  have hd : ∀ v : FVec Ideal Cert.ReferenceIdeal.S1x64 .f32, Cert.Spec.down v (ix2 r q) = v (ix2 (0 : Fin 1) q) :=
    fun v => broadcastInDim_oneRow_apply _ v r q
  show max ((o (ix2 r q) + Cert.Spec.down b (ix2 r q) - Cert.Spec.down mean (ix2 r q))
        * Cert.Spec.down (Host.rsqrt (F := Ideal) (addf var Cert.Spec.epsRow)) (ix2 r q)
        * Cert.Spec.down gamma (ix2 r q) + Cert.Spec.down beta (ix2 r q)) (Ideal.ofBits .f32 0x00000000#32) = _
  rw [hd, hd, hd, hd, hd]
  rfl

theorem elem_congr {a0 a1 a2 a3 a4 a5 b0 b1 b2 b3 b4 b5 : EReal} (h0 : a0 = b0) (h1 : a1 = b1) (h2 : a2 = b2)
    (h3 : a3 = b3) (h4 : a4 = b4) (h5 : a5 = b5) : elem a0 a1 a2 a3 a4 a5 = elem b0 b1 b2 b3 b4 b5 := by
  subst h0 h1 h2 h3 h4 h5; rfl

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the two row windows move one block of rows per point, the five
    parameter rows stay at block (0, 0). -/
theorem idx_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0) :=
  (by decide +kernel : ∀ t : Fin grid2.N, _)

/-- The bias row's block at any point is the whole row. -/
theorem blk1 (c : Dev nD) (t : Fin cfg2.N) :
    (iblk2 V c 1 t : Vec Ideal S1x64 .f32) = (V c (Pipeline.arrRef spec2 1) : S1x64.Idx → Elt Ideal .f32) := by
  obtain ⟨-, ⟨e0, e1⟩, -, -, -, -, -⟩ := idx_facts t
  funext y
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 64 + 1 * (y 1).val = (y 1).val; omega

/-- The running mean's block at any point is the whole row. -/
theorem blk2 (c : Dev nD) (t : Fin cfg2.N) :
    (iblk2 V c 2 t : Vec Ideal S1x64 .f32) = (V c (Pipeline.arrRef spec2 2) : S1x64.Idx → Elt Ideal .f32) := by
  obtain ⟨-, -, ⟨e0, e1⟩, -, -, -, -⟩ := idx_facts t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- The running variance's block at any point is the whole row. -/
theorem blk3 (c : Dev nD) (t : Fin cfg2.N) :
    (iblk2 V c 3 t : Vec Ideal S1x64 .f32) = (V c (Pipeline.arrRef spec2 3) : S1x64.Idx → Elt Ideal .f32) := by
  obtain ⟨-, -, -, ⟨e0, e1⟩, -, -, -⟩ := idx_facts t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- The scale row's block at any point is the whole row. -/
theorem blk4 (c : Dev nD) (t : Fin cfg2.N) :
    (iblk2 V c 4 t : Vec Ideal S1x64 .f32) = (V c (Pipeline.arrRef spec2 4) : S1x64.Idx → Elt Ideal .f32) := by
  obtain ⟨-, -, -, -, ⟨e0, e1⟩, -, -⟩ := idx_facts t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- The shift row's block at any point is the whole row. -/
theorem blk5 (c : Dev nD) (t : Fin cfg2.N) :
    (iblk2 V c 5 t : Vec Ideal S1x64 .f32) = (V c (Pipeline.arrRef spec2 5) : S1x64.Idx → Elt Ideal .f32) := by
  obtain ⟨-, -, -, -, -, ⟨e0, e1⟩, -⟩ := idx_facts t
  funext y
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- The layer input's block at point t holds rows 5000 t … 5000 t + 4999 of the array. -/
theorem blk0_apply (c : Dev nD) (t : Fin cfg2.N) (p : Fin 5000) (q : Fin 64) (r : Fin 100000) (hr : r.val = 5000 * t.val + p.val) :
    (iblk2 V c 0 t : Vec Ideal S5000x64 .f32) (ix2 p q) = (V c (Pipeline.arrRef spec2 0) : S100000x64.Idx → Elt Ideal .f32) (ix2 r q) := by
  obtain ⟨⟨e0, e1⟩, -⟩ := idx_facts t
  show V c (Pipeline.arrRef spec2 0) (((cfg2.win 0).blk t).view.emb (ix2 p q)) = V c (Pipeline.arrRef spec2 0) (ix2 r q)
  refine congrArg _ (funext fun a => Fin.ext ?_)
  match a with
  | ⟨0, _⟩ => show win2_0.index t (0 : Fin 2) * 5000 + 1 * p.val = r.val; omega
  | ⟨1, _⟩ => show win2_0.index t (1 : Fin 2) * 64 + 1 * q.val = q.val; omega

/-- Entry (p, q) of the output's block at point t is entry (5000 t + p, q) of the array. -/
theorem out_emb (t : Fin cfg2.N) (p : Fin 5000) (q : Fin 64) (r : Fin 100000) (hr : r.val = 5000 * t.val + p.val) :
    (((cfg2.win 6).blk t).view.emb (ix2 p q) : S100000x64.Idx) = ix2 r q := by
  obtain ⟨-, -, -, -, -, -, ⟨e0, e1⟩⟩ := idx_facts t
  refine funext fun a => Fin.ext ?_
  match a with
  | ⟨0, _⟩ => show win2_6.index t (0 : Fin 2) * 5000 + 1 * p.val = r.val; omega
  | ⟨1, _⟩ => show win2_6.index t (1 : Fin 2) * 64 + 1 * q.val = q.val; omega

/-- What the body leaves in the output's buffer at point t, entry (p, q): the layer's formula at row 5000 t + p of
    the input array and the five parameter rows. -/
theorem after_apply (c : Dev nD) (t : Fin cfg2.N) (p : Fin 5000) (q : Fin 64) (r : Fin 100000) (hr : r.val = 5000 * t.val + p.val) :
    ((dat2 (F := Ideal) V c).after 6 t : Vec Ideal S5000x64 .f32) (ix2 p q)
      = elem ((V c (Pipeline.arrRef spec2 0) : S100000x64.Idx → Elt Ideal .f32) (ix2 r q))
          ((V c (Pipeline.arrRef spec2 1) : S1x64.Idx → Elt Ideal .f32) (ix2 (0 : Fin 1) q))
          ((V c (Pipeline.arrRef spec2 2) : S1x64.Idx → Elt Ideal .f32) (ix2 (0 : Fin 1) q))
          ((V c (Pipeline.arrRef spec2 3) : S1x64.Idx → Elt Ideal .f32) (ix2 (0 : Fin 1) q))
          ((V c (Pipeline.arrRef spec2 4) : S1x64.Idx → Elt Ideal .f32) (ix2 (0 : Fin 1) q))
          ((V c (Pipeline.arrRef spec2 5) : S1x64.Idx → Elt Ideal .f32) (ix2 (0 : Fin 1) q)) := by
  rw [after2_6]
  unfold out2_6
  rw [View.canon_unit_zero zero_offsets]
  simp only [View.ld_unit_zero (S := S5000x64) zero_offsets, View.ld_unit_zero (S := S1x64) zero_offsets]
  refine (pay_apply _ _ _ _ _ _ p q).trans ?_
  exact elem_congr (blk0_apply V c t p q r hr) (congrFun (blk1 V c t) _) (congrFun (blk2 V c t) _)
    (congrFun (blk3 V c t) _) (congrFun (blk4 V c t) _) (congrFun (blk5 V c t) _)

/-- What point t writes back is block t of the specification of the arrays the region finds. -/
theorem flushed_eq (c : Dev nD) (t : Fin cfg2.N) :
    (dat2 (F := Ideal) V c).flushed 6 t = ((cfg2.win 6).blk t).view.read (Elt Ideal)
      (Cert.Spec.bnrelu (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  funext j
  obtain ⟨p, q, rfl⟩ : ∃ (p : Fin 5000) (q : Fin 64), j = ix2 p q := ⟨j 0, j 1, eq_ix2 j⟩
  have hN : grid2.N = 20 := N_2
  have ht : t.val < 20 := hN ▸ t.isLt
  have hr : 5000 * t.val + p.val < 100000 := by have := p.isLt; omega
  show ((dat2 (F := Ideal) V c).after 6 t : Vec Ideal S5000x64 .f32) (ix2 p q)
    = Cert.Spec.bnrelu _ _ _ _ _ _ (((cfg2.win 6).blk t).view.emb (ix2 p q))
  refine (after_apply V c t p q ⟨5000 * t.val + p.val, hr⟩ rfl).trans ?_
  refine Eq.trans ?_ (congrArg (Cert.Spec.bnrelu _ _ _ _ _ _) (out_emb t p q ⟨5000 * t.val + p.val, hr⟩ rfl)).symm
  exact (spec_apply _ _ _ _ _ _ ⟨5000 * t.val + p.val, hr⟩ q).symm

/-- An index of the array is in point t's block iff each coordinate is in the block's range on its axis. -/
theorem mem_blk (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v65).slice (win2_6.rect t)).set ↔ _
  rw [View.set_slice_whole, Rect.mem_set_unit]
  exact Iff.rfl

/-- Row r of the array is written by point r / 5000. -/
theorem cover (i : S100000x64.Idx) : ∃ t : Fin cfg2.N, (cfg2.win 6).flush t = true ∧ i ∈ ((cfg2.win 6).blk t).view.set := by
  have hN : grid2.N = 20 := N_2
  have hi0 : (i 0).val < 100000 := (i 0).isLt
  have hi1 : (i 1).val < 64 := (i 1).isLt
  have hlt : (i 0).val / 5000 < cfg2.N := by show _ < grid2.N; rw [hN]; omega
  obtain ⟨-, -, -, -, -, -, ⟨e0, e1⟩⟩ := idx_facts ⟨(i 0).val / 5000, hlt⟩
  refine ⟨⟨(i 0).val / 5000, hlt⟩, flush2_6 _, ?_⟩
  rw [mem_blk]
  intro a
  match a with
  | ⟨0, _⟩ =>
    show win2_6.index ⟨(i 0).val / 5000, hlt⟩ (0 : Fin 2) * 5000 ≤ (i 0).val ∧ (i 0).val < win2_6.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_6.index ⟨(i 0).val / 5000, hlt⟩ (1 : Fin 2) * 64 ≤ (i 1).val ∧ (i 1).val < win2_6.index ⟨(i 0).val / 5000, hlt⟩ (1 : Fin 2) * 64 + 64
    rw [e1]; omega

/-- The region's output array is the specification of the arrays it found. -/
theorem final (c : Dev nD) : (dat2 (F := Ideal) V c).arrAt 6 cfg2.N
    = Cert.Spec.bnrelu (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 (F := Ideal) V c).arrAt_eq_of_cover 6 _ (fun t _ => flushed_eq V c t) cover

end Cert.KernelIdeal.Region2

end
-- ==== Proof.Region3.lean ====
/-
  The second layer's dense product, h · W over [100000,64]·[64,64], computed 5000 rows at a time: grid point t loads rows
  5000·t … 5000·t + 4999 of h and the whole of W, multiplies them on the matrix unit into a zero accumulator, and writes
  the same rows of the output. At the extended reals the block product at (p, q) is the sum over k of h[5000·t + p, k] ·
  W[k, q], which is the whole product at row 5000·t + p; the twenty blocks tile the array, so the output array ends at
  h · W.
-/
import proofs.«172421_j61418032333218_1_alg».proof.Proof.Gen.KernelIdeal.Frame
import proofs.«172421_j61418032333218_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-! The operand indices of the two products, coordinate by coordinate: row i₀ and column k on the left, row k and column i₁ on the right. -/

theorem whole_lhs0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem whole_lhs1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem whole_rhs0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem whole_rhs1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

theorem blk_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem blk_lhs1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem blk_rhs0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem blk_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The whole product read at an index: the sum over k of h[i₀, k] · W[k, i₁]. -/
theorem mm_apply (h : FVec Ideal S100000x64 .f32) (w : FVec Ideal S64x64 .f32) (j : S100000x64.Idx) :
    Cert.Spec.mm h w j = ∑ k : Fin 64, h (ix2 (j 0) k) * w (ix2 k (j 1)) := by
  unfold Cert.Spec.mm
  simp only [Host.dotGeneral]
  rw [Ideal.dotGeneral_apply]
  rw [← Equiv.sum_comp (contrEquiv1 Cert.ReferenceIdeal.dot_S100000x64_S64x64_S100000x64_1_0_0_1_n_n 64 rfl rfl).symm]
  refine Finset.sum_congr rfl fun k _ => ?_
  have hk := contrEquiv1_symm_val Cert.ReferenceIdeal.dot_S100000x64_S64x64_S100000x64_1_0_0_1_n_n 64 rfl rfl k
  have el : Cert.ReferenceIdeal.dot_S100000x64_S64x64_S100000x64_1_0_0_1_n_n.lhsIdx j ((contrEquiv1 Cert.ReferenceIdeal.dot_S100000x64_S64x64_S100000x64_1_0_0_1_n_n 64 rfl rfl).symm k) = ix2 (j 0) k := funext fun a => Fin.ext (by
    match a with
    | ⟨0, _⟩ => exact whole_lhs0 _ _
    | ⟨1, _⟩ => exact (whole_lhs1 _ _).trans hk)
  have er : Cert.ReferenceIdeal.dot_S100000x64_S64x64_S100000x64_1_0_0_1_n_n.rhsIdx j ((contrEquiv1 Cert.ReferenceIdeal.dot_S100000x64_S64x64_S100000x64_1_0_0_1_n_n 64 rfl rfl).symm k) = ix2 k (j 1) := funext fun a => Fin.ext (by
    match a with
    | ⟨0, _⟩ => exact (whole_rhs0 _ _).trans hk
    | ⟨1, _⟩ => exact whole_rhs1 _ _)
  rw [el, er]
  rfl

/-- The block product read at an index: the sum over k of x[j₀, k] · w[k, j₁]; the two casts to the matrix unit's input
    format change nothing at the extended reals. -/
theorem pay_apply (x : Vec Ideal S5000x64 .f32) (w : Vec Ideal S64x64 .f32) (j : S5000x64.Idx) :
    k3_pay1 (F := Ideal) x w j = ∑ k : Fin 64, x (ix2 (j 0) k) * w (ix2 k (j 1)) := by
  unfold k3_pay1
  simp only [shapeCast_self]
  refine (Ideal.matmul_constant_zero_apply dot_S5000x64_S64x64_S5000x64_1_0_0_1_n_n none _ _ j).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx j ((contrEquiv1 dot_S5000x64_S64x64_S5000x64_1_0_0_1_n_n 64 rfl rfl).symm k) = ix2 (j 0) k := funext fun a => Fin.ext (by
    match a with
    | ⟨0, _⟩ => exact blk_lhs0 _ _
    | ⟨1, _⟩ => exact (blk_lhs1 _ _).trans hk)
  have er : dot_S5000x64_S64x64_S5000x64_1_0_0_1_n_n.rhsIdx j ((contrEquiv1 dot_S5000x64_S64x64_S5000x64_1_0_0_1_n_n 64 rfl rfl).symm k) = ix2 k (j 1) := funext fun a => Fin.ext (by
    match a with
    | ⟨0, _⟩ => exact (blk_rhs0 _ _).trans hk
    | ⟨1, _⟩ => exact blk_rhs1 _ _)
  rw [el, er]
  rfl

variable (V : (c : Dev nD) → (b : Ref sig .tc) → Buf (Elt Ideal) ((c : Thread nD τ).loc b))

/-- The index maps over the grid: the row windows sit at block (t, 0), the weight window at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- An element of the row block at point t is the array's element 5000·t rows further down. -/
theorem rows_read (c : Dev nD) (t : Fin cfg3.N) (y : S5000x64.Idx) (i : S100000x64.Idx)
    (h0 : (i 0).val = t.val * 5000 + (y 0).val) (h1 : (i 1).val = (y 1).val) :
    iblk3 V c 0 t y = V c (Pipeline.arrRef spec3 0) i := by
  obtain ⟨e0, e1, -, -, -, -⟩ := idx_facts t
  show V c (Pipeline.arrRef spec3 0) (((cfg3.win 0).blk t).view.emb y) = V c (Pipeline.arrRef spec3 0) i
  refine congrArg (V c (Pipeline.arrRef spec3 0)) (funext fun a => Fin.ext ?_)
  match a with
  | ⟨0, _⟩ => show win3_0.index t (0 : Fin 2) * 5000 + 1 * (y 0).val = (i 0).val; omega
  | ⟨1, _⟩ => show win3_0.index t (1 : Fin 2) * 64 + 1 * (y 1).val = (i 1).val; omega

/-- The weight block at every point is the whole weight array. -/
theorem weights_read (c : Dev nD) (t : Fin cfg3.N) (y i : S64x64.Idx)
    (h0 : (i 0).val = (y 0).val) (h1 : (i 1).val = (y 1).val) :
    iblk3 V c 1 t y = V c (Pipeline.arrRef spec3 1) i := by
  obtain ⟨-, -, e2, e3, -, -⟩ := idx_facts t
  show V c (Pipeline.arrRef spec3 1) (((cfg3.win 1).blk t).view.emb y) = V c (Pipeline.arrRef spec3 1) i
  refine congrArg (V c (Pipeline.arrRef spec3 1)) (funext fun a => Fin.ext ?_)
  match a with
  | ⟨0, _⟩ => show win3_1.index t (0 : Fin 2) * 64 + 1 * (y 0).val = (i 0).val; omega
  | ⟨1, _⟩ => show win3_1.index t (1 : Fin 2) * 64 + 1 * (y 1).val = (i 1).val; omega

/-- What point t writes back is block t of the whole product. -/
theorem flushed_eq (c : Dev nD) (t : Fin cfg3.N) :
    (dat3 V c).flushed 2 t = ((cfg3.win 2).blk t).view.read (Elt Ideal)
      (Cert.Spec.mm (V c (Pipeline.arrRef spec3 0)) (V c (Pipeline.arrRef spec3 1))) := by
  show (cfg3.win 2).cut (grid3.coords t) ((dat3 V c).after 2 t) = _
  rw [after3_2]
  unfold out3_2
  rw [View.canon_unit_zero hz]
  simp only [View.ld_unit_zero (S := S5000x64) hz, View.ld_unit_zero (S := S64x64) hz]
  obtain ⟨-, -, -, -, e4, e5⟩ := idx_facts t
  funext j
  show k3_pay1 (iblk3 V c 0 t) (iblk3 V c 1 t) j
    = Cert.Spec.mm (V c (Pipeline.arrRef spec3 0)) (V c (Pipeline.arrRef spec3 1)) (((cfg3.win 2).blk t).view.emb j)
  refine (pay_apply (iblk3 V c 0 t) (iblk3 V c 1 t) j).trans ?_
  rw [mm_apply]
  refine Finset.sum_congr rfl fun k _ => ?_
  have hr0 : ((((cfg3.win 2).blk t).view.emb j) 0).val = t.val * 5000 + (j 0).val := by
    show win3_2.index t (0 : Fin 2) * 5000 + 1 * (j 0).val = _; omega
  have hr1 : ((((cfg3.win 2).blk t).view.emb j) 1).val = (j 1).val := by
    show win3_2.index t (1 : Fin 2) * 64 + 1 * (j 1).val = _; omega
  rw [rows_read V c t (ix2 (j 0) k) (ix2 ((((cfg3.win 2).blk t).view.emb j) 0) k) hr0 rfl,
    weights_read V c t (ix2 k (j 1)) (ix2 k ((((cfg3.win 2).blk t).view.emb j) 1)) rfl hr1]

/-- An index of the array is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v85).slice (win3_2.rect t)).set ↔ _
  rw [View.set_slice_whole, Rect.mem_set_unit]
  exact Iff.rfl

/-- Row r lies in the block of point r / 5000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_2 _, ?_⟩
  rw [mem_blk]
  obtain ⟨-, -, -, -, e4, e5⟩ := idx_facts ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 64 ≤ (i 1).val ∧ (i 1).val < win3_2.index _ (1 : Fin 2) * 64 + 64
    rw [e5]; omega

/-- The output array after the launch is the whole product of the two arrays the launch found. -/
theorem final (c : Dev nD) : (dat3 (F := Ideal) V c).arrAt 2 cfg3.N
    = Cert.Spec.mm (V c (Pipeline.arrRef spec3 0)) (V c (Pipeline.arrRef spec3 1)) :=
  (dat3 V c).arrAt_eq_of_cover 2 _ (fun t _ => flushed_eq V c t) cover

end Cert.KernelIdeal.Region3

end
-- ==== Proof.Region4.lean ====
/-
  The second normalisation layer, with its residual, as one whole-array equation.

  The region reads the layer's dense product o [100000,64], five rows [1,64] — bias b, running mean μ, running
  variance v, scale γ, shift β — and the previous layer's activations h [100000,64], twenty blocks of 5000 rows at a
  time, and at each block stores
      h + max ((o + b − μ) · rsqrt (v + ε) · γ + β, 0),
  the rows repeated down the block and the reciprocal root taken on the row before it is repeated. Read entry by
  entry, the stored block at point t is rows 5000 t … 5000 t + 4999 of the specification of the seven arrays; the
  twenty blocks tile the array (row r lies in block r / 5000), so the array the region leaves is the specification.
-/
import proofs.«172421_j61418032333218_1_alg».proof.Proof.Gen.KernelIdeal.Frame
import proofs.«172421_j61418032333218_1_alg».proof.Proof.Spec
import Idealize.ShloMosaic.Lib.Pipeline.Value
import Idealize.ShloMosaic.Lib.ValueIdx
import Idealize.ShloMosaic.Lib.KernelVsHost

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx

/-- One entry of the normalised, rectified layer: max ((o + b − μ) · rsqrt (v + ε) · γ + β, 0). -/
def elem (o b mu va ga be : EReal) : EReal :=
  max ((o + b - mu) * Ideal.rsqrt (va + Ideal.ofBits .f32 0x3727C5AC#32) * ga + be) (Ideal.ofBits .f32 0x00000000#32)

/-- The same with the previous layer's entry h added in front. -/
def res (h o b mu va ga be : EReal) : EReal := h + elem o b mu va ga be

/-- A row [1,64] laid down 5000 rows, read at (p, q), is the row at (0, q). -/
theorem row_apply (v : S1x64.Idx → EReal) (h : S1x64.Broadcasts S5000x64) (p : Fin 5000) (q : Fin 64) :
    broadcastTo S5000x64 v h (ix2 p q) = v (ix2 (0 : Fin 1) q) :=
  broadcastTo_apply v h (ix2 p q) (ix2 (0 : Fin 1) q) (fun a => by
    match a with
    | ⟨0, _⟩ => rfl
    | ⟨1, _⟩ => rfl)

/-- The body's stored value at (p, q): the previous layer's entry plus the layer's formula. -/
theorem pay_apply (x0 : Vec Ideal S5000x64 .f32) (x1 x2 x3 x4 x5 : Vec Ideal S1x64 .f32) (x6 : Vec Ideal S5000x64 .f32) (p : Fin 5000) (q : Fin 64) :
    k4_pay1 x0 x1 x2 x3 x4 x5 x6 (ix2 p q)
      = res (x6 (ix2 p q)) (x0 (ix2 p q)) (x1 (ix2 (0 : Fin 1) q)) (x2 (ix2 (0 : Fin 1) q)) (x3 (ix2 (0 : Fin 1) q)) (x4 (ix2 (0 : Fin 1) q)) (x5 (ix2 (0 : Fin 1) q)) := by
  unfold k4_pay1
  simp only [shapeCast_self]
  show x6 (ix2 p q) + max ((x0 (ix2 p q) + broadcastTo S5000x64 x1 _ (ix2 p q) - broadcastTo S5000x64 x2 _ (ix2 p q))
        * broadcastTo S5000x64 (rsqrt (addf x3 (broadcast S1x64 (Scalar.ofBits (F := Ideal) .f32 0x3727C5AC#32))) : FVec Ideal S1x64 .f32) _ (ix2 p q)
        * broadcastTo S5000x64 x4 _ (ix2 p q) + broadcastTo S5000x64 x5 _ (ix2 p q)) (Ideal.ofBits .f32 0x00000000#32) = _
  rw [row_apply, row_apply, row_apply, row_apply, row_apply]
  rfl

/-- The specification at (r, q). -/
theorem spec_apply (o : FVec Ideal Cert.ReferenceIdeal.S100000x64 .f32) (b mean var gamma beta : FVec Ideal Cert.ReferenceIdeal.S1x64 .f32)
    (hprev : FVec Ideal Cert.ReferenceIdeal.S100000x64 .f32) (r : Fin 100000) (q : Fin 64) :
    Cert.Spec.bnres o b mean var gamma beta hprev (ix2 r q)
      = res (hprev (ix2 r q)) (o (ix2 r q)) (b (ix2 (0 : Fin 1) q)) (mean (ix2 (0 : Fin 1) q)) (var (ix2 (0 : Fin 1) q)) (gamma (ix2 (0 : Fin 1) q)) (beta (ix2 (0 : Fin 1) q)) := by
  have hd : ∀ v : FVec Ideal Cert.ReferenceIdeal.S1x64 .f32, Cert.Spec.down v (ix2 r q) = v (ix2 (0 : Fin 1) q) :=
    fun v => broadcastInDim_oneRow_apply _ v r q
  show hprev (ix2 r q) + max ((o (ix2 r q) + Cert.Spec.down b (ix2 r q) - Cert.Spec.down mean (ix2 r q))
        * Cert.Spec.down (Host.rsqrt (F := Ideal) (addf var Cert.Spec.epsRow)) (ix2 r q)
        * Cert.Spec.down gamma (ix2 r q) + Cert.Spec.down beta (ix2 r q)) (Ideal.ofBits .f32 0x00000000#32) = _
  rw [hd, hd, hd, hd, hd]
  rfl

theorem res_congr {a0 a1 a2 a3 a4 a5 a6 b0 b1 b2 b3 b4 b5 b6 : EReal} (h0 : a0 = b0) (h1 : a1 = b1) (h2 : a2 = b2)
    (h3 : a3 = b3) (h4 : a4 = b4) (h5 : a5 = b5) (h6 : a6 = b6) :
    res a6 a0 a1 a2 a3 a4 a5 = res b6 b0 b1 b2 b3 b4 b5 := by
  subst h0 h1 h2 h3 h4 h5 h6; rfl

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row windows move one block of rows per point, the five
    parameter rows stay at block (0, 0). -/
theorem idx_facts : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0)
    ∧ (win4_7.index t (0 : Fin 2) = t.val ∧ win4_7.index t (1 : Fin 2) = 0) :=
  (by decide +kernel : ∀ t : Fin grid4.N, _)

/-- The bias row's block at any point is the whole row. -/
theorem blk1 (c : Dev nD) (t : Fin cfg4.N) :
    (iblk4 V c 1 t : Vec Ideal S1x64 .f32) = (V c (Pipeline.arrRef spec4 1) : S1x64.Idx → Elt Ideal .f32) := by
  obtain ⟨-, ⟨e0, e1⟩, -, -, -, -, -, -⟩ := idx_facts t
  funext y
  show V c (Pipeline.arrRef spec4 1) (((cfg4.win 1).blk t).view.emb y) = V c (Pipeline.arrRef spec4 1) y
  refine congrArg _ (funext fun a => Fin.ext ?_)
  match a with
  | ⟨0, _⟩ => show win4_1.index t (0 : Fin 2) * 1 + 1 * (y 0).val = (y 0).val; omega
  | ⟨1, _⟩ => show win4_1.index t (1 : Fin 2) * 64 + 1 * (y 1).val = (y 1).val; omega

/-- The running mean's block at any point is the whole row. -/
theorem blk2 (c : Dev nD) (t : Fin cfg4.N) :
    (iblk4 V c 2 t : Vec Ideal S1x64 .f32) = (V c (Pipeline.arrRef spec4 2) : S1x64.Idx → Elt Ideal .f32) := by
  obtain ⟨-, -, ⟨e0, e1⟩, -, -, -, -, -⟩ := idx_facts t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 64 + 1 * (y 1).val = (y 1).val; omega

/-- The running variance's block at any point is the whole row. -/
theorem blk3 (c : Dev nD) (t : Fin cfg4.N) :
    (iblk4 V c 3 t : Vec Ideal S1x64 .f32) = (V c (Pipeline.arrRef spec4 3) : S1x64.Idx → Elt Ideal .f32) := by
  obtain ⟨-, -, -, ⟨e0, e1⟩, -, -, -, -⟩ := idx_facts t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 64 + 1 * (y 1).val = (y 1).val; omega

/-- The scale row's block at any point is the whole row. -/
theorem blk4 (c : Dev nD) (t : Fin cfg4.N) :
    (iblk4 V c 4 t : Vec Ideal S1x64 .f32) = (V c (Pipeline.arrRef spec4 4) : S1x64.Idx → Elt Ideal .f32) := by
  obtain ⟨-, -, -, -, ⟨e0, e1⟩, -, -, -⟩ := idx_facts t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 64 + 1 * (y 1).val = (y 1).val; omega

/-- The shift row's block at any point is the whole row. -/
theorem blk5 (c : Dev nD) (t : Fin cfg4.N) :
    (iblk4 V c 5 t : Vec Ideal S1x64 .f32) = (V c (Pipeline.arrRef spec4 5) : S1x64.Idx → Elt Ideal .f32) := by
  obtain ⟨-, -, -, -, -, ⟨e0, e1⟩, -, -⟩ := idx_facts t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 64 + 1 * (y 1).val = (y 1).val; omega

/-- The layer input's block at point t holds rows 5000 t … 5000 t + 4999 of the array. -/
theorem blk0_apply (c : Dev nD) (t : Fin cfg4.N) (p : Fin 5000) (q : Fin 64) (r : Fin 100000) (hr : r.val = 5000 * t.val + p.val) :
    (iblk4 V c 0 t : Vec Ideal S5000x64 .f32) (ix2 p q) = (V c (Pipeline.arrRef spec4 0) : S100000x64.Idx → Elt Ideal .f32) (ix2 r q) := by
  obtain ⟨⟨e0, e1⟩, -, -, -, -, -, -, -⟩ := idx_facts t
  show V c (Pipeline.arrRef spec4 0) (((cfg4.win 0).blk t).view.emb (ix2 p q)) = V c (Pipeline.arrRef spec4 0) (ix2 r q)
  refine congrArg _ (funext fun a => Fin.ext ?_)
  match a with
  | ⟨0, _⟩ => show win4_0.index t (0 : Fin 2) * 5000 + 1 * p.val = r.val; omega
  | ⟨1, _⟩ => show win4_0.index t (1 : Fin 2) * 64 + 1 * q.val = q.val; omega

/-- The previous layer's block at point t holds rows 5000 t … 5000 t + 4999 of its array. -/
theorem blk6_apply (c : Dev nD) (t : Fin cfg4.N) (p : Fin 5000) (q : Fin 64) (r : Fin 100000) (hr : r.val = 5000 * t.val + p.val) :
    (iblk4 V c 6 t : Vec Ideal S5000x64 .f32) (ix2 p q) = (V c (Pipeline.arrRef spec4 6) : S100000x64.Idx → Elt Ideal .f32) (ix2 r q) := by
  obtain ⟨-, -, -, -, -, -, ⟨e0, e1⟩, -⟩ := idx_facts t
  show V c (Pipeline.arrRef spec4 6) (((cfg4.win 6).blk t).view.emb (ix2 p q)) = V c (Pipeline.arrRef spec4 6) (ix2 r q)
  refine congrArg _ (funext fun a => Fin.ext ?_)
  match a with
  | ⟨0, _⟩ => show win4_6.index t (0 : Fin 2) * 5000 + 1 * p.val = r.val; omega
  | ⟨1, _⟩ => show win4_6.index t (1 : Fin 2) * 64 + 1 * q.val = q.val; omega

/-- Entry (p, q) of the output's block at point t is entry (5000 t + p, q) of the array. -/
theorem out_emb (t : Fin cfg4.N) (p : Fin 5000) (q : Fin 64) (r : Fin 100000) (hr : r.val = 5000 * t.val + p.val) :
    (((cfg4.win 7).blk t).view.emb (ix2 p q) : S100000x64.Idx) = ix2 r q := by
  obtain ⟨-, -, -, -, -, -, -, ⟨e0, e1⟩⟩ := idx_facts t
  refine funext fun a => Fin.ext ?_
  match a with
  | ⟨0, _⟩ => show win4_7.index t (0 : Fin 2) * 5000 + 1 * p.val = r.val; omega
  | ⟨1, _⟩ => show win4_7.index t (1 : Fin 2) * 64 + 1 * q.val = q.val; omega

/-- What the body leaves in the output's buffer at point t, entry (p, q): the previous layer's entry plus the
    layer's formula, at row 5000 t + p of the two arrays and the five parameter rows. -/
theorem after_apply (c : Dev nD) (t : Fin cfg4.N) (p : Fin 5000) (q : Fin 64) (r : Fin 100000) (hr : r.val = 5000 * t.val + p.val) :
    ((dat4 (F := Ideal) V c).after 7 t : Vec Ideal S5000x64 .f32) (ix2 p q)
      = res ((V c (Pipeline.arrRef spec4 6) : S100000x64.Idx → Elt Ideal .f32) (ix2 r q)) ((V c (Pipeline.arrRef spec4 0) : S100000x64.Idx → Elt Ideal .f32) (ix2 r q))
          ((V c (Pipeline.arrRef spec4 1) : S1x64.Idx → Elt Ideal .f32) (ix2 (0 : Fin 1) q))
          ((V c (Pipeline.arrRef spec4 2) : S1x64.Idx → Elt Ideal .f32) (ix2 (0 : Fin 1) q))
          ((V c (Pipeline.arrRef spec4 3) : S1x64.Idx → Elt Ideal .f32) (ix2 (0 : Fin 1) q))
          ((V c (Pipeline.arrRef spec4 4) : S1x64.Idx → Elt Ideal .f32) (ix2 (0 : Fin 1) q))
          ((V c (Pipeline.arrRef spec4 5) : S1x64.Idx → Elt Ideal .f32) (ix2 (0 : Fin 1) q)) := by
  rw [after4_7]
  unfold out4_7
  rw [View.canon_unit_zero zero_offsets]
  simp only [View.ld_unit_zero (S := S5000x64) zero_offsets, View.ld_unit_zero (S := S1x64) zero_offsets]
  refine (pay_apply _ _ _ _ _ _ _ p q).trans ?_
  exact res_congr (blk0_apply V c t p q r hr) (congrFun (blk1 V c t) _) (congrFun (blk2 V c t) _)
    (congrFun (blk3 V c t) _) (congrFun (blk4 V c t) _) (congrFun (blk5 V c t) _) (blk6_apply V c t p q r hr)

/-- What point t writes back is block t of the specification of the arrays the region finds. -/
theorem flushed_eq (c : Dev nD) (t : Fin cfg4.N) :
    (dat4 (F := Ideal) V c).flushed 7 t = ((cfg4.win 7).blk t).view.read (Elt Ideal)
      (Cert.Spec.bnres (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) (V c (Pipeline.arrRef spec4 6))) := by
  show (cfg4.win 7).cut (grid4.coords t) ((dat4 V c).after 7 t) = _
  funext j
  obtain ⟨p, q, rfl⟩ : ∃ (p : Fin 5000) (q : Fin 64), j = ix2 p q := ⟨j 0, j 1, eq_ix2 j⟩
  have hN : grid4.N = 20 := N_4
  have ht : t.val < 20 := hN ▸ t.isLt
  have hr : 5000 * t.val + p.val < 100000 := by have := p.isLt; omega
  show ((dat4 (F := Ideal) V c).after 7 t : Vec Ideal S5000x64 .f32) (ix2 p q)
    = Cert.Spec.bnres _ _ _ _ _ _ _ (((cfg4.win 7).blk t).view.emb (ix2 p q))
  refine (after_apply V c t p q ⟨5000 * t.val + p.val, hr⟩ rfl).trans ?_
  refine Eq.trans ?_ (congrArg (Cert.Spec.bnres _ _ _ _ _ _ _) (out_emb t p q ⟨5000 * t.val + p.val, hr⟩ rfl)).symm
  exact (spec_apply _ _ _ _ _ _ _ ⟨5000 * t.val + p.val, hr⟩ q).symm

/-- An index of the array is in point t's block iff each coordinate is in the block's range on its axis. -/
theorem mem_blk (t : Fin cfg4.N) (i : S100000x64.Idx) :
    i ∈ ((cfg4.win 7).blk t).view.set ↔ ∀ a : Fin 2, win4_7.index t a * S5000x64.size a ≤ (i a).val ∧ (i a).val < win4_7.index t a * S5000x64.size a + S5000x64.size a := by
  show i ∈ ((View.whole main_v129).slice (win4_7.rect t)).set ↔ _
  rw [View.set_slice_whole, Rect.mem_set_unit]
  exact Iff.rfl

/-- Row r of the array is written by point r / 5000. -/
theorem cover (i : S100000x64.Idx) : ∃ t : Fin cfg4.N, (cfg4.win 7).flush t = true ∧ i ∈ ((cfg4.win 7).blk t).view.set := by
  have hN : grid4.N = 20 := N_4
  have hi0 : (i 0).val < 100000 := (i 0).isLt
  have hi1 : (i 1).val < 64 := (i 1).isLt
  have hlt : (i 0).val / 5000 < cfg4.N := by show _ < grid4.N; rw [hN]; omega
  obtain ⟨-, -, -, -, -, -, -, ⟨e0, e1⟩⟩ := idx_facts ⟨(i 0).val / 5000, hlt⟩
  refine ⟨⟨(i 0).val / 5000, hlt⟩, flush4_7 _, ?_⟩
  rw [mem_blk]
  intro a
  match a with
  | ⟨0, _⟩ =>
    show win4_7.index ⟨(i 0).val / 5000, hlt⟩ (0 : Fin 2) * 5000 ≤ (i 0).val ∧ (i 0).val < win4_7.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win4_7.index ⟨(i 0).val / 5000, hlt⟩ (1 : Fin 2) * 64 ≤ (i 1).val ∧ (i 1).val < win4_7.index ⟨(i 0).val / 5000, hlt⟩ (1 : Fin 2) * 64 + 64
    rw [e1]; omega

/-- The region's output array is the specification of the arrays it found. -/
theorem final (c : Dev nD) : (dat4 (F := Ideal) V c).arrAt 7 cfg4.N
    = Cert.Spec.bnres (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) (V c (Pipeline.arrRef spec4 6)) :=
  (dat4 (F := Ideal) V c).arrAt_eq_of_cover 7 _ (fun t _ => flushed_eq V c t) cover

end Cert.KernelIdeal.Region4

end
-- ==== Proof.Region5.lean ====
/-
  The head, region 5 of the network: over the extended reals the array the region leaves is
      max (pooled · W1 + b1, 0) · W2 + b2
  of the arrays the region finds — the pooled graph features [64,64], the hidden weights W1 [64,32] and bias row
  [1,32], the output weights W2 [32,1] and the bias [1,1]. The grid has one point and every block is its whole
  array, so the one write-back is the whole result [64,1]. Entry by entry both sides are the same double sum:
  for graph p, Σⱼ max (Σₖ pooled[p,k]·W1[k,j] + b1[0,j], 0) · W2[j,0] + b2, the inner sum over the 64 pooled
  features and the outer over the 32 hidden units, each product accumulated from zero and each bias repeated
  down the 64 graphs.
-/
import proofs.«172421_j61418032333218_1_alg».proof.Proof.Gen.KernelIdeal.Frame
import proofs.«172421_j61418032333218_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region5

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## The body's arithmetic at an index -/

/-- The dimension numbers of the hidden layer's product [64,64]·[64,32]. -/
abbrev D1 : DotDims S64x64 S64x32 S64x32 := dot_S64x64_S64x32_S64x32_1_0_0_1_n_n

theorem D1_lhs_row (i : S64x32.Idx) (k : D1.contr.Idx) : (D1.lhsIdx i k 0).val = (i 0).val := by
  unfold DotDims.lhsIdx
  rw [dif_neg (show ¬(0 : Fin S64x64.rank) ∈ D1.lhsBatch by decide), dif_pos (show (0 : Fin S64x64.rank) ∈ D1.lhsNonContracting by decide)]
  rfl
theorem D1_lhs_col (i : S64x32.Idx) (k : D1.contr.Idx) : (D1.lhsIdx i k 1).val = (k ⟨0, by decide⟩).val :=
  D1.lhsIdx_val_of_single rfl i k
theorem D1_rhs_row (i : S64x32.Idx) (k : D1.contr.Idx) : (D1.rhsIdx i k 0).val = (k ⟨0, by decide⟩).val :=
  D1.rhsIdx_val_of_single rfl i k
theorem D1_rhs_col (i : S64x32.Idx) (k : D1.contr.Idx) : (D1.rhsIdx i k 1).val = (i 1).val := by
  unfold DotDims.rhsIdx
  rw [dif_neg (show ¬(1 : Fin S64x32.rank) ∈ D1.rhsBatch by decide), dif_pos (show (1 : Fin S64x32.rank) ∈ D1.rhsNonContracting by decide)]
  rfl

/-- The hidden layer's product into the zero accumulator, at graph `p` and hidden unit `j`: the sum over the 64 pooled features. -/
theorem hid_matmul_apply (a : FVec Ideal S64x64 .bf16) (b : FVec Ideal S64x32 .bf16) (p : Fin 64) (j : Fin 32) :
    matmul D1 none a b (constant S64x32 .f32 0x00000000#32) (ix2 p j) = ∑ k : Fin 64, a (ix2 p k) * b (ix2 k j) := by
  simp only [matmul]
  rw [Ideal.matmul_constant_zero_apply, ← Equiv.sum_comp (contrEquiv1 D1 64 rfl rfl).symm]
  refine Finset.sum_congr rfl fun k _ => ?_
  have hk := contrEquiv1_symm_val D1 64 rfl rfl k
  have el : D1.lhsIdx (ix2 p j) ((contrEquiv1 D1 64 rfl rfl).symm k) = ix2 p k := funext fun a => Fin.ext (by
    match a with
    | ⟨0, _⟩ => exact D1_lhs_row _ _
    | ⟨1, _⟩ => exact (D1_lhs_col _ _).trans hk)
  have er : D1.rhsIdx (ix2 p j) ((contrEquiv1 D1 64 rfl rfl).symm k) = ix2 k j := funext fun a => Fin.ext (by
    match a with
    | ⟨0, _⟩ => exact (D1_rhs_row _ _).trans hk
    | ⟨1, _⟩ => exact D1_rhs_col _ _)
  rw [el, er]

/-- The dimension numbers of the output layer's product [64,32]·[32,1]. -/
abbrev D2 : DotDims S64x32 S32x1 S64x1 := dot_S64x32_S32x1_S64x1_1_0_0_1_n_n

theorem D2_lhs_row (i : S64x1.Idx) (k : D2.contr.Idx) : (D2.lhsIdx i k 0).val = (i 0).val := by
  unfold DotDims.lhsIdx
  rw [dif_neg (show ¬(0 : Fin S64x32.rank) ∈ D2.lhsBatch by decide), dif_pos (show (0 : Fin S64x32.rank) ∈ D2.lhsNonContracting by decide)]
  rfl
theorem D2_lhs_col (i : S64x1.Idx) (k : D2.contr.Idx) : (D2.lhsIdx i k 1).val = (k ⟨0, by decide⟩).val :=
  D2.lhsIdx_val_of_single rfl i k
theorem D2_rhs_row (i : S64x1.Idx) (k : D2.contr.Idx) : (D2.rhsIdx i k 0).val = (k ⟨0, by decide⟩).val :=
  D2.rhsIdx_val_of_single rfl i k
theorem D2_rhs_col (i : S64x1.Idx) (k : D2.contr.Idx) : (D2.rhsIdx i k 1).val = (i 1).val := by
  unfold DotDims.rhsIdx
  rw [dif_neg (show ¬(1 : Fin S32x1.rank) ∈ D2.rhsBatch by decide), dif_pos (show (1 : Fin S32x1.rank) ∈ D2.rhsNonContracting by decide)]
  rfl

/-- The output layer's product into the zero accumulator, at graph `p`: the sum over the 32 hidden units. -/
theorem out_matmul_apply (a : FVec Ideal S64x32 .bf16) (b : FVec Ideal S32x1 .bf16) (p : Fin 64) (z : Fin 1) :
    matmul D2 none a b (constant S64x1 .f32 0x00000000#32) (ix2 p z) = ∑ j : Fin 32, a (ix2 p j) * b (ix2 j z) := by
  simp only [matmul]
  rw [Ideal.matmul_constant_zero_apply, ← Equiv.sum_comp (contrEquiv1 D2 32 rfl rfl).symm]
  refine Finset.sum_congr rfl fun k _ => ?_
  have hk := contrEquiv1_symm_val D2 32 rfl rfl k
  have el : D2.lhsIdx (ix2 p z) ((contrEquiv1 D2 32 rfl rfl).symm k) = ix2 p k := funext fun a => Fin.ext (by
    match a with
    | ⟨0, _⟩ => exact D2_lhs_row _ _
    | ⟨1, _⟩ => exact (D2_lhs_col _ _).trans hk)
  have er : D2.rhsIdx (ix2 p z) ((contrEquiv1 D2 32 rfl rfl).symm k) = ix2 k z := funext fun a => Fin.ext (by
    match a with
    | ⟨0, _⟩ => exact (D2_rhs_row _ _).trans hk
    | ⟨1, _⟩ => exact D2_rhs_col _ _)
  rw [el, er]

/-- The hidden bias row repeated down the 64 graphs, read at graph `p`, unit `j`. -/
theorem hid_bias_apply (x : FVec Ideal S1x32 .f32) (p : Fin 64) (j : Fin 32) :
    broadcastTo S64x32 x broadcasts_S1x32_S64x32 (ix2 p j) = x (ix2 0 j) :=
  broadcastTo_apply x broadcasts_S1x32_S64x32 (ix2 p j) (ix2 0 j) (fun a => by
    match a with
    | ⟨0, _⟩ => rfl
    | ⟨1, _⟩ => rfl)

/-- The output bias, one number, repeated down the 64 graphs. -/
theorem out_bias_apply (x : FVec Ideal S1x1 .f32) (p : Fin 64) (z : Fin 1) :
    broadcastTo S64x1 x broadcasts_S1x1_S64x1 (ix2 p z) = x (ix2 0 0) :=
  broadcastTo_apply x broadcasts_S1x1_S64x1 (ix2 p z) (ix2 0 0) (fun a => by
    match a with
    | ⟨0, _⟩ => rfl
    | ⟨1, _⟩ => rfl)

/-- The head's payload at graph `p`: Σⱼ max (Σₖ pooled[p,k]·W1[k,j] + b1[0,j], 0) · W2[j,0] + b2. -/
theorem pay_apply (x0 : Vec Ideal S64x64 .f32) (x1 : Vec Ideal S64x32 .f32) (x2 : Vec Ideal S1x32 .f32) (x3 : Vec Ideal S32x1 .f32) (x4 : Vec Ideal S1x1 .f32)
    (p : Fin 64) (z : Fin 1) :
    Gen.k5_pay1 x0 x1 x2 x3 x4 (ix2 p z)
      = (∑ j : Fin 32, max ((∑ k : Fin 64, x0 (ix2 p k) * x1 (ix2 k j)) + x2 (ix2 0 j)) 0 * x3 (ix2 j z)) + x4 (ix2 0 0) := by
  unfold Gen.k5_pay1
  simp only [shapeCast_self]
  rw [addf_apply, out_matmul_apply, out_bias_apply]
  refine congrArg (· + x4 (ix2 0 0)) (Finset.sum_congr rfl fun j _ => ?_)
  simp only [truncf_apply, maximumf_apply, addf_apply, hid_matmul_apply, hid_bias_apply, broadcast_apply]
  rw [show (FloatOps.ofBits FTy.f32 0x00000000#32 : Ideal .f32) = 0 from Ideal.ofBits_zero_f32]

/-! ## The whole-array head at an index -/

/-- The dimension numbers of the whole-array hidden product [64,64]·[64,32]. -/
abbrev E1 : DotDims S64x64 S64x32 S64x32 := Cert.ReferenceIdeal.dot_S64x64_S64x32_S64x32_1_0_0_1_n_n

theorem E1_lhs_row (i : S64x32.Idx) (k : E1.contr.Idx) : (E1.lhsIdx i k 0).val = (i 0).val := by
  unfold DotDims.lhsIdx
  rw [dif_neg (show ¬(0 : Fin S64x64.rank) ∈ E1.lhsBatch by decide), dif_pos (show (0 : Fin S64x64.rank) ∈ E1.lhsNonContracting by decide)]
  rfl
theorem E1_lhs_col (i : S64x32.Idx) (k : E1.contr.Idx) : (E1.lhsIdx i k 1).val = (k ⟨0, by decide⟩).val :=
  E1.lhsIdx_val_of_single rfl i k
theorem E1_rhs_row (i : S64x32.Idx) (k : E1.contr.Idx) : (E1.rhsIdx i k 0).val = (k ⟨0, by decide⟩).val :=
  E1.rhsIdx_val_of_single rfl i k
theorem E1_rhs_col (i : S64x32.Idx) (k : E1.contr.Idx) : (E1.rhsIdx i k 1).val = (i 1).val := by
  unfold DotDims.rhsIdx
  rw [dif_neg (show ¬(1 : Fin S64x32.rank) ∈ E1.rhsBatch by decide), dif_pos (show (1 : Fin S64x32.rank) ∈ E1.rhsNonContracting by decide)]
  rfl

/-- The whole-array hidden product at graph `p` and hidden unit `j`: the sum over the 64 pooled features. -/
theorem whole_hid_apply (a : FVec Ideal S64x64 .f32) (b : FVec Ideal S64x32 .f32) (p : Fin 64) (j : Fin 32) :
    Host.dotGeneral (F := Ideal) E1 none a b (ix2 p j) = ∑ k : Fin 64, a (ix2 p k) * b (ix2 k j) := by
  simp only [Host.dotGeneral]
  rw [Ideal.dotGeneral_apply, ← Equiv.sum_comp (contrEquiv1 E1 64 rfl rfl).symm]
  refine Finset.sum_congr rfl fun k _ => ?_
  have hk := contrEquiv1_symm_val E1 64 rfl rfl k
  have el : E1.lhsIdx (ix2 p j) ((contrEquiv1 E1 64 rfl rfl).symm k) = ix2 p k := funext fun a => Fin.ext (by
    match a with
    | ⟨0, _⟩ => exact E1_lhs_row _ _
    | ⟨1, _⟩ => exact (E1_lhs_col _ _).trans hk)
  have er : E1.rhsIdx (ix2 p j) ((contrEquiv1 E1 64 rfl rfl).symm k) = ix2 k j := funext fun a => Fin.ext (by
    match a with
    | ⟨0, _⟩ => exact (E1_rhs_row _ _).trans hk
    | ⟨1, _⟩ => exact E1_rhs_col _ _)
  rw [el, er]

/-- The dimension numbers of the whole-array output product [64,32]·[32,1]. -/
abbrev E2 : DotDims S64x32 S32x1 S64x1 := Cert.ReferenceIdeal.dot_S64x32_S32x1_S64x1_1_0_0_1_n_n

theorem E2_lhs_row (i : S64x1.Idx) (k : E2.contr.Idx) : (E2.lhsIdx i k 0).val = (i 0).val := by
  unfold DotDims.lhsIdx
  rw [dif_neg (show ¬(0 : Fin S64x32.rank) ∈ E2.lhsBatch by decide), dif_pos (show (0 : Fin S64x32.rank) ∈ E2.lhsNonContracting by decide)]
  rfl
theorem E2_lhs_col (i : S64x1.Idx) (k : E2.contr.Idx) : (E2.lhsIdx i k 1).val = (k ⟨0, by decide⟩).val :=
  E2.lhsIdx_val_of_single rfl i k
theorem E2_rhs_row (i : S64x1.Idx) (k : E2.contr.Idx) : (E2.rhsIdx i k 0).val = (k ⟨0, by decide⟩).val :=
  E2.rhsIdx_val_of_single rfl i k
theorem E2_rhs_col (i : S64x1.Idx) (k : E2.contr.Idx) : (E2.rhsIdx i k 1).val = (i 1).val := by
  unfold DotDims.rhsIdx
  rw [dif_neg (show ¬(1 : Fin S32x1.rank) ∈ E2.rhsBatch by decide), dif_pos (show (1 : Fin S32x1.rank) ∈ E2.rhsNonContracting by decide)]
  rfl

/-- The whole-array output product at graph `p`: the sum over the 32 hidden units. -/
theorem whole_out_apply (a : FVec Ideal S64x32 .f32) (b : FVec Ideal S32x1 .f32) (p : Fin 64) (z : Fin 1) :
    Host.dotGeneral (F := Ideal) E2 none a b (ix2 p z) = ∑ j : Fin 32, a (ix2 p j) * b (ix2 j z) := by
  simp only [Host.dotGeneral]
  rw [Ideal.dotGeneral_apply, ← Equiv.sum_comp (contrEquiv1 E2 32 rfl rfl).symm]
  refine Finset.sum_congr rfl fun k _ => ?_
  have hk := contrEquiv1_symm_val E2 32 rfl rfl k
  have el : E2.lhsIdx (ix2 p z) ((contrEquiv1 E2 32 rfl rfl).symm k) = ix2 p k := funext fun a => Fin.ext (by
    match a with
    | ⟨0, _⟩ => exact E2_lhs_row _ _
    | ⟨1, _⟩ => exact (E2_lhs_col _ _).trans hk)
  have er : E2.rhsIdx (ix2 p z) ((contrEquiv1 E2 32 rfl rfl).symm k) = ix2 k z := funext fun a => Fin.ext (by
    match a with
    | ⟨0, _⟩ => exact (E2_rhs_row _ _).trans hk
    | ⟨1, _⟩ => exact E2_rhs_col _ _)
  rw [el, er]

/-- The hidden bias row repeated down the 64 graphs (the host's broadcast), read at graph `p`, unit `j`. -/
theorem whole_hid_bias_apply (x : FVec Ideal S1x32 .f32) (p : Fin 64) (j : Fin 32) :
    broadcastInDim S64x32 ![0, 1] Cert.ReferenceIdeal.Gen.bcast_S1x32_S64x32_0_1 x (ix2 p j) = x (ix2 0 j) :=
  broadcastInDim_apply _ _ x (ix2 p j) (ix2 0 j) (fun a => by
    match a with
    | ⟨0, _⟩ => rfl
    | ⟨1, _⟩ => rfl)

/-- The output bias repeated down the 64 graphs (the host's broadcast). -/
theorem whole_out_bias_apply (x : FVec Ideal S1x1 .f32) (p : Fin 64) (z : Fin 1) :
    broadcastInDim S64x1 ![0, 1] Cert.ReferenceIdeal.Gen.bcast_S1x1_S64x1_0_1 x (ix2 p z) = x (ix2 0 0) :=
  broadcastInDim_apply _ _ x (ix2 p z) (ix2 0 0) (fun a => by
    match a with
    | ⟨0, _⟩ => rfl
    | ⟨1, _⟩ => rfl)

/-- The host's zero array [64,32] is zero everywhere. -/
theorem whole_zeros_apply (i : S64x32.Idx) :
    broadcastInDim S64x32 ![] Cert.ReferenceIdeal.Gen.bcast_S_S64x32 (constant (F := Ideal) Cert.ReferenceIdeal.S_ .f32 0x00000000#32) i = 0 :=
  (broadcastInDim_apply _ _ (constant (F := Ideal) Cert.ReferenceIdeal.S_ .f32 0x00000000#32) i ix0 (fun a => a.elim0)).trans
    Ideal.ofBits_zero_f32

/-- The whole-array head at graph `p`: Σⱼ max (Σₖ pooled[p,k]·W1[k,j] + b1[0,j], 0) · W2[j,0] + b2. -/
theorem mlp_apply (P : FVec Ideal S64x64 .f32) (W1 : FVec Ideal S64x32 .f32) (B1 : FVec Ideal S1x32 .f32) (W2 : FVec Ideal S32x1 .f32) (B2 : FVec Ideal S1x1 .f32)
    (p : Fin 64) (z : Fin 1) :
    Cert.Spec.mlp P W1 B1 W2 B2 (ix2 p z)
      = (∑ j : Fin 32, max ((∑ k : Fin 64, P (ix2 p k) * W1 (ix2 k j)) + B1 (ix2 0 j)) 0 * W2 (ix2 j z)) + B2 (ix2 0 0) := by
  unfold Cert.Spec.mlp
  rw [addf_apply, whole_out_apply, whole_out_bias_apply]
  refine congrArg (· + B2 (ix2 0 0)) (Finset.sum_congr rfl fun j _ => ?_)
  rw [maximumf_apply, addf_apply, whole_hid_apply, whole_hid_bias_apply, whole_zeros_apply]

/-! ## From the one block to the array -/

/-- The printed index maps at the grid's one point: every window's block is block (0, 0), its whole array. -/
theorem idx_facts : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- The pooled features' block is the whole [64,64] array. -/
theorem pooled_block (c : Dev nD) (t : Fin cfg5.N) :
    (Gen.iblk5 V c 0 t : Vec Ideal S64x64 .f32) = (V c (Pipeline.arrRef spec5 0) : S64x64.Idx → Ideal .f32) := by
  obtain ⟨e0, e1, -⟩ := idx_facts t
  funext y
  show (V c (Pipeline.arrRef spec5 0) : S64x64.Idx → Ideal .f32) (((cfg5.win 0).blk t).view.emb y)
    = (V c (Pipeline.arrRef spec5 0) : S64x64.Idx → Ideal .f32) y
  congr 1
  funext a; apply Fin.ext
  match a with
  | ⟨0, _⟩ => show win5_0.index t (0 : Fin 2) * 64 + 1 * (y 0).val = (y 0).val; omega
  | ⟨1, _⟩ => show win5_0.index t (1 : Fin 2) * 64 + 1 * (y 1).val = (y 1).val; omega

/-- The hidden weights' block is the whole [64,32] array. -/
theorem w1_block (c : Dev nD) (t : Fin cfg5.N) :
    (Gen.iblk5 V c 1 t : Vec Ideal S64x32 .f32) = (V c (Pipeline.arrRef spec5 1) : S64x32.Idx → Ideal .f32) := by
  obtain ⟨-, -, e0, e1, -⟩ := idx_facts t
  funext y
  show (V c (Pipeline.arrRef spec5 1) : S64x32.Idx → Ideal .f32) (((cfg5.win 1).blk t).view.emb y)
    = (V c (Pipeline.arrRef spec5 1) : S64x32.Idx → Ideal .f32) y
  congr 1
  funext a; apply Fin.ext
  match a with
  | ⟨0, _⟩ => show win5_1.index t (0 : Fin 2) * 64 + 1 * (y 0).val = (y 0).val; omega
  | ⟨1, _⟩ => show win5_1.index t (1 : Fin 2) * 32 + 1 * (y 1).val = (y 1).val; omega

/-- The hidden bias row's block is the whole [1,32] row. -/
theorem b1_block (c : Dev nD) (t : Fin cfg5.N) :
    (Gen.iblk5 V c 2 t : Vec Ideal S1x32 .f32) = (V c (Pipeline.arrRef spec5 2) : S1x32.Idx → Ideal .f32) := by
  obtain ⟨-, -, -, -, e0, e1, -⟩ := idx_facts t
  funext y
  show (V c (Pipeline.arrRef spec5 2) : S1x32.Idx → Ideal .f32) (((cfg5.win 2).blk t).view.emb y)
    = (V c (Pipeline.arrRef spec5 2) : S1x32.Idx → Ideal .f32) y
  congr 1
  funext a; apply Fin.ext
  match a with
  | ⟨0, _⟩ => show win5_2.index t (0 : Fin 2) * 1 + 1 * (y 0).val = (y 0).val; omega
  | ⟨1, _⟩ => show win5_2.index t (1 : Fin 2) * 32 + 1 * (y 1).val = (y 1).val; omega

/-- The output weights' block is the whole [32,1] array. -/
theorem w2_block (c : Dev nD) (t : Fin cfg5.N) :
    (Gen.iblk5 V c 3 t : Vec Ideal S32x1 .f32) = (V c (Pipeline.arrRef spec5 3) : S32x1.Idx → Ideal .f32) := by
  obtain ⟨-, -, -, -, -, -, e0, e1, -⟩ := idx_facts t
  funext y
  show (V c (Pipeline.arrRef spec5 3) : S32x1.Idx → Ideal .f32) (((cfg5.win 3).blk t).view.emb y)
    = (V c (Pipeline.arrRef spec5 3) : S32x1.Idx → Ideal .f32) y
  congr 1
  funext a; apply Fin.ext
  match a with
  | ⟨0, _⟩ => show win5_3.index t (0 : Fin 2) * 32 + 1 * (y 0).val = (y 0).val; omega
  | ⟨1, _⟩ => show win5_3.index t (1 : Fin 2) * 1 + 1 * (y 1).val = (y 1).val; omega

/-- The output bias's block is the whole [1,1] array. -/
theorem b2_block (c : Dev nD) (t : Fin cfg5.N) :
    (Gen.iblk5 V c 4 t : Vec Ideal S1x1 .f32) = (V c (Pipeline.arrRef spec5 4) : S1x1.Idx → Ideal .f32) := by
  obtain ⟨-, -, -, -, -, -, -, -, e0, e1, -⟩ := idx_facts t
  funext y
  show (V c (Pipeline.arrRef spec5 4) : S1x1.Idx → Ideal .f32) (((cfg5.win 4).blk t).view.emb y)
    = (V c (Pipeline.arrRef spec5 4) : S1x1.Idx → Ideal .f32) y
  congr 1
  funext a; apply Fin.ext
  match a with
  | ⟨0, _⟩ => show win5_4.index t (0 : Fin 2) * 1 + 1 * (y 0).val = (y 0).val; omega
  | ⟨1, _⟩ => show win5_4.index t (1 : Fin 2) * 1 + 1 * (y 1).val = (y 1).val; omega

/-- An element of the output's block sits at the same place in the [64,1] array. -/
theorem out_emb (t : Fin cfg5.N) (y : S64x1.Idx) : ((cfg5.win 5).blk t).view.emb y = y := by
  obtain ⟨-, -, -, -, -, -, -, -, -, -, e0, e1⟩ := idx_facts t
  funext a; apply Fin.ext
  match a with
  | ⟨0, _⟩ => show win5_5.index t (0 : Fin 2) * 64 + 1 * (y 0).val = (y 0).val; omega
  | ⟨1, _⟩ => show win5_5.index t (1 : Fin 2) * 1 + 1 * (y 1).val = (y 1).val; omega

/-- WHAT THE ONE POINT WRITES BACK is the (whole) block of the whole-array head of the arrays as the region finds them. -/
theorem flushed_eq (c : Dev nD) (t : Fin cfg5.N) :
    (Gen.dat5 (F := Ideal) V c).flushed 5 t = ((cfg5.win 5).blk t).view.read (Elt Ideal)
      (Cert.Spec.mlp (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((Gen.dat5 V c).after 5 t) = _
  rw [Gen.after5_5]
  unfold Gen.out5_5
  rw [View.canon_unit_zero hz]
  simp only [View.ld_unit_zero (S := S64x64) hz, View.ld_unit_zero (S := S64x32) hz, View.ld_unit_zero (S := S1x32) hz,
    View.ld_unit_zero (S := S32x1) hz, View.ld_unit_zero (S := S1x1) hz]
  refine funext fun (j : S64x1.Idx) => ?_
  obtain ⟨p, z, rfl⟩ : ∃ (p : Fin 64) (z : Fin 1), j = ix2 p z := ⟨j 0, j 1, eq_ix2 j⟩
  show Gen.k5_pay1 (Gen.iblk5 V c 0 t) (Gen.iblk5 V c 1 t) (Gen.iblk5 V c 2 t) (Gen.iblk5 V c 3 t) (Gen.iblk5 V c 4 t) (ix2 p z)
    = Cert.Spec.mlp _ _ _ _ _ (((cfg5.win 5).blk t).view.emb (ix2 p z))
  rw [out_emb t (ix2 p z), pay_apply, mlp_apply, pooled_block, w1_block, b1_block, w2_block, b2_block]

/-- An index of the array is in the point's block iff each coordinate is in the block's range on its axis. -/
theorem mem_blk (t : Fin cfg5.N) (i : S64x1.Idx) :
    i ∈ ((cfg5.win 5).blk t).view.set ↔ ∀ a : Fin 2, win5_5.index t a * S64x1.size a ≤ (i a).val ∧ (i a).val < win5_5.index t a * S64x1.size a + S64x1.size a := by
  show i ∈ ((View.whole main_v144).slice (win5_5.rect t)).set ↔ _
  rw [View.set_slice_whole, Rect.mem_set_unit]
  exact Iff.rfl

/-- The one point's block is the whole array. -/
theorem cover (i : S64x1.Idx) : ∃ t : Fin cfg5.N, (cfg5.win 5).flush t = true ∧ i ∈ ((cfg5.win 5).blk t).view.set := by
  have hi0 : (i 0).val < 64 := (i 0).isLt
  have hi1 : (i 1).val < 1 := (i 1).isLt
  obtain ⟨-, -, -, -, -, -, -, -, -, -, e0, e1⟩ := idx_facts Gen.t5_0
  refine ⟨Gen.t5_0, Gen.flush5_5 _, ?_⟩
  rw [mem_blk]
  intro a
  match a with
  | ⟨0, _⟩ =>
    show win5_5.index Gen.t5_0 (0 : Fin 2) * 64 ≤ (i 0).val ∧ (i 0).val < win5_5.index Gen.t5_0 (0 : Fin 2) * 64 + 64
    rw [e0]; omega
  | ⟨1, _⟩ =>
    show win5_5.index Gen.t5_0 (1 : Fin 2) * 1 ≤ (i 1).val ∧ (i 1).val < win5_5.index Gen.t5_0 (1 : Fin 2) * 1 + 1
    rw [e1]; omega

/-- THE ARRAY after the region: the whole-array head of the arrays as the region finds them. -/
theorem final (c : Dev nD) : (Gen.dat5 (F := Ideal) V c).arrAt 5 cfg5.N
    = Cert.Spec.mlp (V c (Pipeline.arrRef spec5 0)) (V c (Pipeline.arrRef spec5 1)) (V c (Pipeline.arrRef spec5 2))
        (V c (Pipeline.arrRef spec5 3)) (V c (Pipeline.arrRef spec5 4)) :=
  (Gen.dat5 (F := Ideal) V c).arrAt_eq_of_cover 5 _ (fun t _ => flushed_eq V c t) cover

end Cert.KernelIdeal.Region5

end
-- ==== Proof.Chain.lean ====
/-
  The kernel program's result, read back segment by segment, is the reference's.
  The program is six tiled launches among stretches of host operations. After each launch its output array holds the
  whole-array function of the arrays the launch found (Region0 … Region5), and every other buffer is as it was; a stretch of
  host operations is a composition of whole-array functions of the buffers it reads. Reading a buffer back through the
  segments to the one that wrote it therefore expresses every array the program builds as a function of the fifteen
  arguments — and, stage by stage, it is the function the reference builds: the projection and its ReLU; per layer the
  source and destination lists (the edge columns with the self-loops appended), the degrees, deg^(-1/2) where positive, the
  dense product, the gather by source scaled by the two endpoints' factors and scatter-added by destination, the bias and
  normalisation rows, the ReLU (and the residual in the second layer); the sums and counts per graph and their quotient;
  the head. Two bookkeeping facts carry the comparison: a vector reshaped to a row is the vector laid along the second
  axis, and taking rsqrt (v + ε) before or after laying v as a row is the same.
  A concatenation's operands sit inside a list of shaped pieces, where a rewriting pass does not reach; so the stretch that
  builds the two index lists is cut right after them, the lists are identified once from any contents, and the degrees are
  read from the cut on. The choice deg > 0 ? deg^(-1/2) : 0 is likewise read once from any contents.
-/
import proofs.«172421_j61418032333218_1_alg».proof.Proof.Gen.KernelIdeal.Frame
import proofs.«172421_j61418032333218_1_alg».proof.Proof.Spec
import proofs.«172421_j61418032333218_1_alg».proof.Proof.RefRead
import proofs.«172421_j61418032333218_1_alg».proof.Proof.Region0
import proofs.«172421_j61418032333218_1_alg».proof.Proof.Region1
import proofs.«172421_j61418032333218_1_alg».proof.Proof.Region2
import proofs.«172421_j61418032333218_1_alg».proof.Proof.Region3
import proofs.«172421_j61418032333218_1_alg».proof.Proof.Region4
import proofs.«172421_j61418032333218_1_alg».proof.Proof.Region5
import Idealize.ShloMosaic.Lib.StableHlo.Run
import Idealize.ShloMosaic.Lib.ValueLayout
import Idealize.ShloMosaic.Lib.Pipeline.Value
import Idealize.ShloMosaic.Lib.Pipeline.Frame

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Read

/-- A vector [n] reshaped to the row [1,n] is the vector laid along the second axis. -/
theorem row_cast_eq_bcast {n : ℕ} (v : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext j
  obtain ⟨u, i, rfl⟩ : ∃ (u : Fin 1) (i : Fin n), j = ix2 u i := ⟨j 0, j 1, eq_ix2 j⟩
  rw [shapeCast_a_1a_apply]
  refine (broadcastInDim_apply _ h' v (ix2 u i) (ix1 i) fun a => ?_).symm
  match a with
  | ⟨0, _⟩ =>
    show i.val = if n = 1 then 0 else i.val
    split
    · have := i.isLt; omega
    · rfl

/-- Taking rsqrt (v + ε) on a vector and then laying it as a row is taking it on the row. -/
theorem rsqrt_row (v : FVec Ideal S64 .f32) :
    broadcastInDim S1x64 ![1] Cert.ReferenceIdeal.Gen.bcast_S64_S1x64_1
        (Host.rsqrt (F := Ideal) (addf v (broadcastInDim S64 ![] Cert.ReferenceIdeal.Gen.bcast_S_S64 (constant (F := Ideal) S_ .f32 0x3727C5AC#32))))
      = Host.rsqrt (F := Ideal) (addf (broadcastInDim S1x64 ![1] Cert.ReferenceIdeal.Gen.bcast_S64_S1x64_1 v) Cert.Spec.epsRow) := rfl

variable (m : (ℓ : Loc nD τ sig) → Buf (Elt Ideal) ℓ) (ρ : Dev nD → PrngReg)

/-- An argument array as launched. -/
abbrev A (c : Dev nD) (b : Ref sig .tc) : Buf (Elt Ideal) ((c.tc : Thread nD τ).loc b) := m ((c.tc : Thread nD τ).loc b)

/-- Read a buffer back through the segments: across a launch that does not write it, and through a stretch of host
    operations to the operands of the operation that wrote it. -/
macro "walk_back" : tactic => `(tactic| (
  repeat (first
    | (rw [W14_of_ne]; rotate_left; decide)
    | (rw [W12_of_ne]; rotate_left; decide)
    | (rw [W10_of_ne]; rotate_left; decide)
    | (rw [W7_of_ne]; rotate_left; decide)
    | (rw [W5_of_ne]; rotate_left; decide)
    | (rw [W2_of_ne]; rotate_left; decide)
    | (dsimp only [V13, V11, V9, V6, V4, V1, W13, W11, W9, W8, W6, W4, W3, W1, hostOps0, hostOps1, hostOps1_1, hostOps2, hostOps3, hostOps3_1, hostOps4, hostOps5]; after_results_simp))))

/-! ## The input projection and the first layer -/

theorem e_v1 (c : Dev nD) : W2 m ρ c (Proc.devRef .tc main_v1)
    = val_main_v4 (F := Ideal) (A m c main_arg0) (A m c main_arg3) (A m c main_arg4) := by
  refine (W2_arr m ρ c 3).trans ?_
  rw [Cert.KernelIdeal.Region0.final (V1 m ρ) c]
  have h0 : V1 m ρ c (Pipeline.arrRef spec0 0) = A m c main_arg0 := by
    show V1 m ρ c main_arg0 = _
    walk_back
  have h1 : V1 m ρ c (Pipeline.arrRef spec0 1) = A m c main_arg3 := by
    show V1 m ρ c main_arg3 = _
    walk_back
  have h2 : V1 m ρ c (Pipeline.arrRef spec0 2) = shapeCast S1x64 (A m c main_arg4) shapeCasts_S64_S1x64 := by
    show V1 m ρ c main_v0 = _
    walk_back
    rfl
  rw [h0, h1, h2, row_cast_eq_bcast _ _ Cert.ReferenceIdeal.Gen.bcast_S64_S1x64_1]
  rfl

theorem e_v3 (c : Dev nD) : V4 m ρ c main_v3 = val_main_v6 (F := Ideal) (A m c main_arg5) := by
  walk_back
  rfl

theorem e_v21 (c : Dev nD) : W5 m ρ c (Proc.devRef .tc main_v21)
    = val_main_v26 (F := Ideal) (A m c main_arg0) (A m c main_arg3) (A m c main_arg4) (A m c main_arg5) := by
  refine (W5_arr m ρ c 2).trans ?_
  rw [Cert.KernelIdeal.Region1.final (V4 m ρ) c]
  have h0 : V4 m ρ c (Pipeline.arrRef spec1 0) = val_main_v4 (F := Ideal) (A m c main_arg0) (A m c main_arg3) (A m c main_arg4) := by
    show V4 m ρ c main_v1 = _
    walk_back
    exact e_v1 m ρ c
  rw [h0, show V4 m ρ c (Pipeline.arrRef spec1 1) = _ from e_v3 m ρ c]
  rfl

/-- The contents after the first nine host operations that follow the projection: the source and destination lists,
    the edges' columns with the self-loops appended, are built; the degrees are not yet. -/
def Wmid1 (c : Dev nD) : Valuation τ sig (Elt Ideal) := StableHlo.after (List.take 9 hostOps1) (W2 m ρ c)

theorem W3_eq (c : Dev nD) : W3 m ρ c = StableHlo.after (List.drop 9 hostOps1) (Wmid1 m ρ c) := by
  unfold Wmid1
  rw [← StableHlo.after_append, List.take_append_drop]

/-- The source list, from any contents: the edges' first row with the node numbers appended. -/
theorem cat_src1 (V : Valuation τ sig (Elt Ideal)) : StableHlo.after (List.take 9 hostOps1) V (Proc.devRef .tc main_v7)
    = val_main_v12 (F := Ideal) (V (Proc.devRef .tc main_arg1)) := by
  dsimp only [hostOps1, List.take]
  after_results_simp
  rfl

/-- The destination list, from any contents: the edges' second row with the node numbers appended. -/
theorem cat_dst1 (V : Valuation τ sig (Elt Ideal)) : StableHlo.after (List.take 9 hostOps1) V (Proc.devRef .tc main_v10)
    = val_main_v15 (F := Ideal) (V (Proc.devRef .tc main_arg1)) := by
  dsimp only [hostOps1, List.take]
  after_results_simp
  rfl

theorem W2_arg1 (c : Dev nD) : W2 m ρ c (Proc.devRef .tc main_arg1) = A m c main_arg1 := by
  walk_back

theorem mid1_v7 (c : Dev nD) : Wmid1 m ρ c (Proc.devRef .tc main_v7) = val_main_v12 (F := Ideal) (A m c main_arg1) := by
  unfold Wmid1
  rw [cat_src1, W2_arg1]

theorem mid1_v10 (c : Dev nD) : Wmid1 m ρ c (Proc.devRef .tc main_v10) = val_main_v15 (F := Ideal) (A m c main_arg1) := by
  unfold Wmid1
  rw [cat_dst1, W2_arg1]

/-- deg⁻¹ᐟ² where the degree is positive and 0 elsewhere, from any contents: the choice between the two. -/
theorem where1 (V : Valuation τ sig (Elt Ideal)) : StableHlo.after hostOps1_1 V (Proc.devRef .tc main_v20)
    = select (V (Proc.devRef .tc main_v16)) (V (Proc.devRef .tc main_v19))
        (broadcastInDim S100000 ![] bcast_S_S100000 (V (Proc.devRef .tc main_cst_3))) := by
  dsimp only [hostOps1_1]
  after_results_simp
  rfl

theorem e_v16 (c : Dev nD) : W3 m ρ c (Proc.devRef .tc main_v16) = val_main_v21 (F := Ideal) (A m c main_arg1) := by
  rw [W3_eq]
  dsimp only [hostOps1, List.drop]
  after_results_simp
  rw [mid1_v10 m ρ c]
  rfl

theorem e_v19 (c : Dev nD) : W3 m ρ c (Proc.devRef .tc main_v19) = val_main_v24 (F := Ideal) (A m c main_arg1) := by
  rw [W3_eq]
  dsimp only [hostOps1, List.drop]
  after_results_simp
  rw [mid1_v10 m ρ c]
  rfl

theorem e_cst3 (c : Dev nD) : W3 m ρ c (Proc.devRef .tc main_cst_3) = val_main_cst_3 (F := Ideal) := by
  rw [W3_eq]
  dsimp only [hostOps1, List.drop]
  after_results_simp
  rfl

theorem e_v20 (c : Dev nD) : W5 m ρ c (Proc.devRef .tc main_v20) = val_main_v25 (F := Ideal) (A m c main_arg1) := by
  rw [W5_of_ne]; rotate_left; decide
  show StableHlo.after hostOps1_1 (W3 m ρ c) (Proc.devRef .tc main_v20) = _
  rw [where1, e_v16 m ρ c, e_v19 m ρ c, e_cst3 m ρ c]
  rfl

theorem e_v7 (c : Dev nD) : W5 m ρ c (Proc.devRef .tc main_v7) = val_main_v12 (F := Ideal) (A m c main_arg1) := by
  rw [W5_of_ne]; rotate_left; decide
  show StableHlo.after hostOps1_1 (W3 m ρ c) (Proc.devRef .tc main_v7) = _
  rw [W3_eq]
  dsimp only [hostOps1, hostOps1_1, List.drop]
  after_results_simp
  exact mid1_v7 m ρ c

theorem e_v10 (c : Dev nD) : W5 m ρ c (Proc.devRef .tc main_v10) = val_main_v15 (F := Ideal) (A m c main_arg1) := by
  rw [W5_of_ne]; rotate_left; decide
  show StableHlo.after hostOps1_1 (W3 m ρ c) (Proc.devRef .tc main_v10) = _
  rw [W3_eq]
  dsimp only [hostOps1, hostOps1_1, List.drop]
  after_results_simp
  exact mid1_v10 m ρ c

set_option maxHeartbeats 4000000 in
theorem W5_arg (c : Dev nD) : W5 m ρ c (Proc.devRef .tc main_arg6) = A m c main_arg6
    ∧ W5 m ρ c (Proc.devRef .tc main_arg7) = A m c main_arg7 ∧ W5 m ρ c (Proc.devRef .tc main_arg8) = A m c main_arg8
    ∧ W5 m ρ c (Proc.devRef .tc main_arg9) = A m c main_arg9 ∧ W5 m ρ c (Proc.devRef .tc main_arg10) = A m c main_arg10 := by
  refine ⟨?_, ?_, ?_, ?_, ?_⟩ <;> walk_back

set_option maxHeartbeats 2000000 in
theorem e_v49 (c : Dev nD) : W6 m ρ c (Proc.devRef .tc main_v49)
    = val_main_v54 (F := Ideal) (A m c main_arg0) (A m c main_arg1) (A m c main_arg3) (A m c main_arg4) (A m c main_arg5) := by
  dsimp only [W6, hostOps2]
  after_results_simp
  rw [e_v21 m ρ c, e_v20 m ρ c, e_v7 m ρ c, e_v10 m ρ c]
  rfl

theorem e_v60 (c : Dev nD) : W6 m ρ c (Proc.devRef .tc main_v60) = val_main_v55 (F := Ideal) (A m c main_arg6) := by
  dsimp only [W6, hostOps2]
  after_results_simp
  rw [(W5_arg m ρ c).1]
  exact row_cast_eq_bcast (n := 64) _ _ Cert.ReferenceIdeal.Gen.bcast_S64_S1x64_1
theorem e_v61 (c : Dev nD) : W6 m ρ c (Proc.devRef .tc main_v61) = val_main_v60 (F := Ideal) (A m c main_arg9) := by
  dsimp only [W6, hostOps2]
  after_results_simp
  rw [(W5_arg m ρ c).2.2.2.1]
  exact row_cast_eq_bcast (n := 64) _ _ Cert.ReferenceIdeal.Gen.bcast_S64_S1x64_1
theorem e_v62 (c : Dev nD) : W6 m ρ c (Proc.devRef .tc main_v62)
    = broadcastInDim S1x64 ![1] Cert.ReferenceIdeal.Gen.bcast_S64_S1x64_1 (val_main_v64 (F := Ideal) (A m c main_arg10)) := by
  dsimp only [W6, hostOps2]
  after_results_simp
  rw [(W5_arg m ρ c).2.2.2.2]
  exact row_cast_eq_bcast (n := 64) _ _ Cert.ReferenceIdeal.Gen.bcast_S64_S1x64_1
theorem e_v63 (c : Dev nD) : W6 m ρ c (Proc.devRef .tc main_v63) = val_main_v73 (F := Ideal) (A m c main_arg7) := by
  dsimp only [W6, hostOps2]
  after_results_simp
  rw [(W5_arg m ρ c).2.1]
  exact row_cast_eq_bcast (n := 64) _ _ Cert.ReferenceIdeal.Gen.bcast_S64_S1x64_1
theorem e_v64 (c : Dev nD) : W6 m ρ c (Proc.devRef .tc main_v64) = val_main_v78 (F := Ideal) (A m c main_arg8) := by
  dsimp only [W6, hostOps2]
  after_results_simp
  rw [(W5_arg m ρ c).2.2.1]
  exact row_cast_eq_bcast (n := 64) _ _ Cert.ReferenceIdeal.Gen.bcast_S64_S1x64_1

theorem e_v65 (c : Dev nD) : W7 m ρ c (Proc.devRef .tc main_v65) = val_main_v81 (F := Ideal) (A m c main_arg0) (A m c main_arg1) (A m c main_arg3) (A m c main_arg4) (A m c main_arg5) (A m c main_arg6) (A m c main_arg7) (A m c main_arg8) (A m c main_arg9) (A m c main_arg10) := by
  refine (W7_arr m ρ c 6).trans ?_
  rw [Cert.KernelIdeal.Region2.final (V6 m ρ) c,
    show V6 m ρ c (Pipeline.arrRef spec2 0) = _ from e_v49 m ρ c, show V6 m ρ c (Pipeline.arrRef spec2 1) = _ from e_v60 m ρ c,
    show V6 m ρ c (Pipeline.arrRef spec2 2) = _ from e_v61 m ρ c, show V6 m ρ c (Pipeline.arrRef spec2 3) = _ from e_v62 m ρ c,
    show V6 m ρ c (Pipeline.arrRef spec2 4) = _ from e_v63 m ρ c, show V6 m ρ c (Pipeline.arrRef spec2 5) = _ from e_v64 m ρ c]
  unfold Cert.Spec.bnrelu
  rw [← rsqrt_row]
  rfl

/-! ## The second layer -/

theorem e_v65_9 (c : Dev nD) : V9 m ρ c main_v65 = val_main_v81 (F := Ideal) (A m c main_arg0) (A m c main_arg1) (A m c main_arg3) (A m c main_arg4) (A m c main_arg5) (A m c main_arg6) (A m c main_arg7) (A m c main_arg8) (A m c main_arg9) (A m c main_arg10) := by
  walk_back
  exact e_v65 m ρ c

theorem e_v67 (c : Dev nD) : V9 m ρ c main_v67 = val_main_v83 (F := Ideal) (A m c main_arg5) := by
  walk_back
  rfl

theorem e_v85 (c : Dev nD) : W10 m ρ c (Proc.devRef .tc main_v85) = val_main_v103 (F := Ideal) (A m c main_arg0) (A m c main_arg1) (A m c main_arg3) (A m c main_arg4) (A m c main_arg5) (A m c main_arg6) (A m c main_arg7) (A m c main_arg8) (A m c main_arg9) (A m c main_arg10) := by
  refine (W10_arr m ρ c 2).trans ?_
  rw [Cert.KernelIdeal.Region3.final (V9 m ρ) c, show V9 m ρ c (Pipeline.arrRef spec3 0) = _ from e_v65_9 m ρ c,
    show V9 m ρ c (Pipeline.arrRef spec3 1) = _ from e_v67 m ρ c]
  rfl

/-- The same cut in the second layer: after the first nine host operations that follow the first layer's launch. -/
def Wmid3 (c : Dev nD) : Valuation τ sig (Elt Ideal) := StableHlo.after (List.take 9 hostOps3) (W7 m ρ c)

theorem W8_eq (c : Dev nD) : W8 m ρ c = StableHlo.after (List.drop 9 hostOps3) (Wmid3 m ρ c) := by
  unfold Wmid3
  rw [← StableHlo.after_append, List.take_append_drop]

theorem cat_src3 (V : Valuation τ sig (Elt Ideal)) : StableHlo.after (List.take 9 hostOps3) V (Proc.devRef .tc main_v71)
    = val_main_v89 (F := Ideal) (V (Proc.devRef .tc main_arg1)) := by
  dsimp only [hostOps3, List.take]
  after_results_simp
  rfl

theorem cat_dst3 (V : Valuation τ sig (Elt Ideal)) : StableHlo.after (List.take 9 hostOps3) V (Proc.devRef .tc main_v74)
    = val_main_v92 (F := Ideal) (V (Proc.devRef .tc main_arg1)) := by
  dsimp only [hostOps3, List.take]
  after_results_simp
  rfl

theorem W7_arg1 (c : Dev nD) : W7 m ρ c (Proc.devRef .tc main_arg1) = A m c main_arg1 := by
  walk_back

theorem mid3_v71 (c : Dev nD) : Wmid3 m ρ c (Proc.devRef .tc main_v71) = val_main_v89 (F := Ideal) (A m c main_arg1) := by
  unfold Wmid3
  rw [cat_src3, W7_arg1]

theorem mid3_v74 (c : Dev nD) : Wmid3 m ρ c (Proc.devRef .tc main_v74) = val_main_v92 (F := Ideal) (A m c main_arg1) := by
  unfold Wmid3
  rw [cat_dst3, W7_arg1]

theorem where3 (V : Valuation τ sig (Elt Ideal)) : StableHlo.after hostOps3_1 V (Proc.devRef .tc main_v84)
    = select (V (Proc.devRef .tc main_v80)) (V (Proc.devRef .tc main_v83))
        (broadcastInDim S100000 ![] bcast_S_S100000 (V (Proc.devRef .tc main_cst_14))) := by
  dsimp only [hostOps3_1]
  after_results_simp
  rfl

theorem e_v80 (c : Dev nD) : W8 m ρ c (Proc.devRef .tc main_v80) = val_main_v98 (F := Ideal) (A m c main_arg1) := by
  rw [W8_eq]
  dsimp only [hostOps3, List.drop]
  after_results_simp
  rw [mid3_v74 m ρ c]
  rfl

theorem e_v83 (c : Dev nD) : W8 m ρ c (Proc.devRef .tc main_v83) = val_main_v101 (F := Ideal) (A m c main_arg1) := by
  rw [W8_eq]
  dsimp only [hostOps3, List.drop]
  after_results_simp
  rw [mid3_v74 m ρ c]
  rfl

theorem e_cst14 (c : Dev nD) : W8 m ρ c (Proc.devRef .tc main_cst_14) = val_main_cst_15 (F := Ideal) := by
  rw [W8_eq]
  dsimp only [hostOps3, List.drop]
  after_results_simp
  rfl

theorem e_v84 (c : Dev nD) : W10 m ρ c (Proc.devRef .tc main_v84) = val_main_v102 (F := Ideal) (A m c main_arg1) := by
  rw [W10_of_ne]; rotate_left; decide
  show StableHlo.after hostOps3_1 (W8 m ρ c) (Proc.devRef .tc main_v84) = _
  rw [where3, e_v80 m ρ c, e_v83 m ρ c, e_cst14 m ρ c]
  rfl

theorem e_v71 (c : Dev nD) : W10 m ρ c (Proc.devRef .tc main_v71) = val_main_v89 (F := Ideal) (A m c main_arg1) := by
  rw [W10_of_ne]; rotate_left; decide
  show StableHlo.after hostOps3_1 (W8 m ρ c) (Proc.devRef .tc main_v71) = _
  rw [W8_eq]
  dsimp only [hostOps3, hostOps3_1, List.drop]
  after_results_simp
  exact mid3_v71 m ρ c

theorem e_v74 (c : Dev nD) : W10 m ρ c (Proc.devRef .tc main_v74) = val_main_v92 (F := Ideal) (A m c main_arg1) := by
  rw [W10_of_ne]; rotate_left; decide
  show StableHlo.after hostOps3_1 (W8 m ρ c) (Proc.devRef .tc main_v74) = _
  rw [W8_eq]
  dsimp only [hostOps3, hostOps3_1, List.drop]
  after_results_simp
  exact mid3_v74 m ρ c

/-- The first layer's output crosses the second product's launch unchanged: it is one of that launch's inputs. -/
theorem e_v65_10 (c : Dev nD) : W10 m ρ c (Proc.devRef .tc main_v65) = val_main_v81 (F := Ideal) (A m c main_arg0) (A m c main_arg1) (A m c main_arg3) (A m c main_arg4) (A m c main_arg5) (A m c main_arg6) (A m c main_arg7) (A m c main_arg8) (A m c main_arg9) (A m c main_arg10) :=
  (W10_arr m ρ c 0).trans (((dat3 (V9 m ρ) c).arrAt_in 0 rfl _).trans ((A_eq3 (V9 m ρ) c 0).trans (e_v65_9 m ρ c)))

set_option maxHeartbeats 4000000 in
theorem W10_arg (c : Dev nD) : W10 m ρ c (Proc.devRef .tc main_arg6) = A m c main_arg6
    ∧ W10 m ρ c (Proc.devRef .tc main_arg7) = A m c main_arg7 ∧ W10 m ρ c (Proc.devRef .tc main_arg8) = A m c main_arg8
    ∧ W10 m ρ c (Proc.devRef .tc main_arg9) = A m c main_arg9 ∧ W10 m ρ c (Proc.devRef .tc main_arg10) = A m c main_arg10 := by
  refine ⟨?_, ?_, ?_, ?_, ?_⟩ <;> walk_back

set_option maxHeartbeats 2000000 in
theorem e_v113 (c : Dev nD) : W11 m ρ c (Proc.devRef .tc main_v113) = val_main_v131 (F := Ideal) (A m c main_arg0) (A m c main_arg1) (A m c main_arg3) (A m c main_arg4) (A m c main_arg5) (A m c main_arg6) (A m c main_arg7) (A m c main_arg8) (A m c main_arg9) (A m c main_arg10) := by
  dsimp only [W11, hostOps4]
  after_results_simp
  rw [e_v85 m ρ c, e_v84 m ρ c, e_v71 m ρ c, e_v74 m ρ c]
  rfl

theorem e_v124 (c : Dev nD) : W11 m ρ c (Proc.devRef .tc main_v124) = val_main_v132 (F := Ideal) (A m c main_arg6) := by
  dsimp only [W11, hostOps4]
  after_results_simp
  rw [(W10_arg m ρ c).1]
  exact row_cast_eq_bcast (n := 64) _ _ Cert.ReferenceIdeal.Gen.bcast_S64_S1x64_1
theorem e_v125 (c : Dev nD) : W11 m ρ c (Proc.devRef .tc main_v125) = val_main_v137 (F := Ideal) (A m c main_arg9) := by
  dsimp only [W11, hostOps4]
  after_results_simp
  rw [(W10_arg m ρ c).2.2.2.1]
  exact row_cast_eq_bcast (n := 64) _ _ Cert.ReferenceIdeal.Gen.bcast_S64_S1x64_1
theorem e_v126 (c : Dev nD) : W11 m ρ c (Proc.devRef .tc main_v126)
    = broadcastInDim S1x64 ![1] Cert.ReferenceIdeal.Gen.bcast_S64_S1x64_1 (val_main_v141 (F := Ideal) (A m c main_arg10)) := by
  dsimp only [W11, hostOps4]
  after_results_simp
  rw [(W10_arg m ρ c).2.2.2.2]
  exact row_cast_eq_bcast (n := 64) _ _ Cert.ReferenceIdeal.Gen.bcast_S64_S1x64_1
theorem e_v127 (c : Dev nD) : W11 m ρ c (Proc.devRef .tc main_v127) = val_main_v150 (F := Ideal) (A m c main_arg7) := by
  dsimp only [W11, hostOps4]
  after_results_simp
  rw [(W10_arg m ρ c).2.1]
  exact row_cast_eq_bcast (n := 64) _ _ Cert.ReferenceIdeal.Gen.bcast_S64_S1x64_1
theorem e_v128 (c : Dev nD) : W11 m ρ c (Proc.devRef .tc main_v128) = val_main_v155 (F := Ideal) (A m c main_arg8) := by
  dsimp only [W11, hostOps4]
  after_results_simp
  rw [(W10_arg m ρ c).2.2.1]
  exact row_cast_eq_bcast (n := 64) _ _ Cert.ReferenceIdeal.Gen.bcast_S64_S1x64_1

theorem e_v65_11 (c : Dev nD) : W11 m ρ c (Proc.devRef .tc main_v65) = val_main_v81 (F := Ideal) (A m c main_arg0) (A m c main_arg1) (A m c main_arg3) (A m c main_arg4) (A m c main_arg5) (A m c main_arg6) (A m c main_arg7) (A m c main_arg8) (A m c main_arg9) (A m c main_arg10) := by
  dsimp only [W11, hostOps4]
  after_results_simp
  exact e_v65_10 m ρ c

theorem e_v129 (c : Dev nD) : W12 m ρ c (Proc.devRef .tc main_v129) = val_main_v159 (F := Ideal) (A m c main_arg0) (A m c main_arg1) (A m c main_arg3) (A m c main_arg4) (A m c main_arg5) (A m c main_arg6) (A m c main_arg7) (A m c main_arg8) (A m c main_arg9) (A m c main_arg10) := by
  refine (W12_arr m ρ c 7).trans ?_
  rw [Cert.KernelIdeal.Region4.final (V11 m ρ) c,
    show V11 m ρ c (Pipeline.arrRef spec4 0) = _ from e_v113 m ρ c, show V11 m ρ c (Pipeline.arrRef spec4 1) = _ from e_v124 m ρ c,
    show V11 m ρ c (Pipeline.arrRef spec4 2) = _ from e_v125 m ρ c, show V11 m ρ c (Pipeline.arrRef spec4 3) = _ from e_v126 m ρ c,
    show V11 m ρ c (Pipeline.arrRef spec4 4) = _ from e_v127 m ρ c, show V11 m ρ c (Pipeline.arrRef spec4 5) = _ from e_v128 m ρ c,
    show V11 m ρ c (Pipeline.arrRef spec4 6) = _ from e_v65_11 m ρ c]
  unfold Cert.Spec.bnres Cert.Spec.bnrelu
  rw [← rsqrt_row]
  rfl

/-! ## The mean over each graph, and the head -/

set_option maxHeartbeats 4000000 in
theorem W12_arg (c : Dev nD) : W12 m ρ c (Proc.devRef .tc main_arg2) = A m c main_arg2
    ∧ W12 m ρ c (Proc.devRef .tc main_arg11) = A m c main_arg11 ∧ W12 m ρ c (Proc.devRef .tc main_arg12) = A m c main_arg12
    ∧ W12 m ρ c (Proc.devRef .tc main_arg13) = A m c main_arg13 ∧ W12 m ρ c (Proc.devRef .tc main_arg14) = A m c main_arg14 := by
  refine ⟨?_, ?_, ?_, ?_, ?_⟩ <;> walk_back

theorem e_v141 (c : Dev nD) : W13 m ρ c (Proc.devRef .tc main_v141)
    = val_main_v171 (F := Ideal) (A m c main_arg0) (A m c main_arg1) (A m c main_arg2) (A m c main_arg3) (A m c main_arg4) (A m c main_arg5) (A m c main_arg6) (A m c main_arg7) (A m c main_arg8) (A m c main_arg9) (A m c main_arg10) := by
  dsimp only [W13, hostOps5]
  after_results_simp
  rw [e_v129 m ρ c, (W12_arg m ρ c).1]
  rfl

theorem e_v142 (c : Dev nD) : W13 m ρ c (Proc.devRef .tc main_v142) = val_main_v173 (F := Ideal) (A m c main_arg12) := by
  dsimp only [W13, hostOps5]
  after_results_simp
  rw [(W12_arg m ρ c).2.2.1]
  exact row_cast_eq_bcast (n := 32) _ _ Cert.ReferenceIdeal.Gen.bcast_S32_S1x32_1
theorem e_v143 (c : Dev nD) : W13 m ρ c (Proc.devRef .tc main_v143) = val_main_v178 (F := Ideal) (A m c main_arg14) := by
  dsimp only [W13, hostOps5]
  after_results_simp
  rw [(W12_arg m ρ c).2.2.2.2]
  exact row_cast_eq_bcast (n := 1) _ _ Cert.ReferenceIdeal.Gen.bcast_S1_S1x1_1
theorem e_arg11 (c : Dev nD) : W13 m ρ c (Proc.devRef .tc main_arg11) = A m c main_arg11 := by
  dsimp only [W13, hostOps5]
  after_results_simp
  exact (W12_arg m ρ c).2.1
theorem e_arg13 (c : Dev nD) : W13 m ρ c (Proc.devRef .tc main_arg13) = A m c main_arg13 := by
  dsimp only [W13, hostOps5]
  after_results_simp
  exact (W12_arg m ρ c).2.2.2.1

/-- The kernel program's result array is the reference's last stage of the same fifteen arguments. -/
theorem result_eq (c : Dev nD) : W14 m ρ c (Proc.devRef .tc main_v144)
    = val_main_v180 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) := by
  refine (W14_arr m ρ c 5).trans ?_
  rw [Cert.KernelIdeal.Region5.final (V13 m ρ) c,
    show V13 m ρ c (Pipeline.arrRef spec5 0) = _ from e_v141 m ρ c, show V13 m ρ c (Pipeline.arrRef spec5 1) = _ from e_arg11 m ρ c,
    show V13 m ρ c (Pipeline.arrRef spec5 2) = _ from e_v142 m ρ c, show V13 m ρ c (Pipeline.arrRef spec5 3) = _ from e_arg13 m ρ c,
    show V13 m ρ c (Pipeline.arrRef spec5 4) = _ from e_v143 m ρ c]
  rfl

end Cert.KernelIdeal.Chain

end
-- ==== Proof.lean ====
/-
  A two-layer graph convolution network with a pooled head, written with six tiled launches — the input projection
  max (x · W_in + b_in, 0), each layer's dense product h · W, each layer's bias + batch normalisation + ReLU (the second
  with the residual), and the head max (p · W1 + b1, 0) · W2 + b2 — against the same network written with whole-array
  operations. Everything between the launches (self-loops appended to the edge list, degrees by a scatter-add of ones,
  deg^(-1/2) where the degree is positive, the gathers by source and the scatter-add by destination, the mean over each
  graph) is the same sequence of host operations in both programs.
  Over the extended reals each launch's output array is the whole-array function of the arrays it found (Proof/Region0 …
  Region5: a block's product is the product's block, the rows of parameters repeat down the nodes, the twenty row blocks
  tile the array), the casts to the matrix unit's input format are the identity, and a sum of products does not depend on
  how it is tiled. Reading the kernel program's buffers back segment by segment (Proof/Chain) then gives its result as the
  reference's last stage of the same fifteen arguments; no step uses finiteness of the inputs.
  The frames are the generated ones; the kernel's idealization rewrote nothing, so it is preserved trivially.
-/
import proofs.«172421_j61418032333218_1_alg».proof.Defs
import proofs.«172421_j61418032333218_1_alg».proof.Proof.Gen.Kernel
import proofs.«172421_j61418032333218_1_alg».proof.Proof.Gen.Kernel.Frame
import proofs.«172421_j61418032333218_1_alg».proof.Proof.Gen.KernelIdeal
import proofs.«172421_j61418032333218_1_alg».proof.Proof.Gen.KernelIdeal.Frame
import proofs.«172421_j61418032333218_1_alg».proof.Proof.Gen.ReferenceIdeal
import proofs.«172421_j61418032333218_1_alg».proof.Proof.Gen.Pre_finite_inputs
import proofs.«172421_j61418032333218_1_alg».proof.Proof.KernelRun
import proofs.«172421_j61418032333218_1_alg».proof.Proof.RefRead
import proofs.«172421_j61418032333218_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the fifteen arguments both programs run, and the kernel program's result array — the
    last launch's output read off the fold over its segments — is the reference's result: the reference's last stage of
    the arguments. -/
theorem algebraic : Cert.algebraic_KernelIdeal_ReferenceIdeal := by
  intro m ρ m' ρ' _ hagree
  refine ⟨fun c => Cert.KernelIdeal.Gen.W14 m ρ c (Proc.devRef .tc Cert.KernelIdeal.main_v144),
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v180_eq, e0, e1, e2, e3, e4, e5, e6, e7, e8, e9, e10, e11, e12, e13, e14]
  exact (Cert.KernelIdeal.Chain.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
